-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4096x64 : Shape := ⟨2, ![4096, 64]⟩
abbrev S4096 : Shape := ⟨1, ![4096]⟩
abbrev S128x128 : Shape := ⟨2, ![128, 128]⟩
abbrev S128 : Shape := ⟨1, ![128]⟩
abbrev S64x128 : Shape := ⟨2, ![64, 128]⟩
abbrev S256x128 : Shape := ⟨2, ![256, 128]⟩
abbrev S128x100 : Shape := ⟨2, ![128, 100]⟩
abbrev S100 : Shape := ⟨1, ![100]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_

variable [Facts]

def fn_part2 {F : FTy → Type} [FloatOps F] (main_arg9 : FVec F S128 .f32) (main_arg10 : FVec F S128x100 .f32) (main_arg11 : FVec F S100 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x100 .f32 := Host.absf main_arg10
  let main_cst_14 : FVec F S_ .f32 := constant S_ .f32 0x7F800000#32
  let main_v40 : FVec F S128x100 .f32 := broadcastInDim S128x100 ![] bcast_S_S128x100 main_cst_14
  let main_v41 : IVec S128x100 1 := cmpf .olt main_v39 main_v40
  let main_c_15 : IVec S_ 1 := constantI S_ 1 1#1
  let main_v42 : IVec S_ 1 := (fun x v => Host.reduce IntOp.andi x v reducesTo_S128x100_S_d0_1 h_S_) main_v41 main_c_15
  let main_v43 : IVec S_ 1 := andi main_v38 main_v42
  let main_v44 : FVec F S100 .f32 := Host.absf main_arg11
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  main_v48

def fn_part1 {F : FTy → Type} [FloatOps F] (main_arg6 : FVec F S64x128 .f32) (main_arg7 : FVec F S128 .f32) (main_arg8 : FVec F S256x128 .f32) (main_arg9 : FVec F S128 .f32) (main_arg10 : FVec F S128x100 .f32) (main_arg11 : FVec F S100 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S4096x64 .f32) (main_arg3 : IVec S4096 32) (main_arg4 : FVec F S128x128 .f32) (main_arg5 : FVec F S128 .f32) (main_arg6 : FVec F S64x128 .f32) (main_arg7 : FVec F S128 .f32) (main_arg8 : FVec F S256x128 .f32) (main_arg9 : FVec F S128 .f32) (main_arg10 : FVec F S128x100 .f32) (main_arg11 : FVec F S100 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S4096x64 : Shape := ⟨2, ![4096, 64]⟩
abbrev S4096 : Shape := ⟨1, ![4096]⟩
abbrev S128x128 : Shape := ⟨2, ![128, 128]⟩
abbrev S128 : Shape := ⟨1, ![128]⟩
abbrev S64x128 : Shape := ⟨2, ![64, 128]⟩
abbrev S256x128 : Shape := ⟨2, ![256, 128]⟩
abbrev S128x100 : Shape := ⟨2, ![128, 100]⟩
abbrev S100 : Shape := ⟨1, ![100]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S4096x1 : Shape := ⟨2, ![4096, 1]⟩
abbrev S4096x128 : Shape := ⟨2, ![4096, 128]⟩
abbrev S1x128 : Shape := ⟨2, ![1, 128]⟩
abbrev S1 : Shape := ⟨1, ![1]⟩
abbrev S1x100 : Shape := ⟨2, ![1, 100]⟩
abbrev S4096x100 : Shape := ⟨2, ![4096, 100]⟩

abbrev nBuf : Space → Nat
  | .hbm => 92
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4096x64, .f32⟩
  | .hbm, ⟨3, _⟩ => ⟨S4096, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x100, .f32⟩
  | .hbm, ⟨11, _⟩ => ⟨S100, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x128, .f32⟩
  | .hbm, ⟨44, _⟩ => ⟨S_, .f32⟩
  | .hbm, ⟨45, _⟩ => ⟨S100000x128, .f32⟩
  | .hbm, ⟨46, _⟩ => ⟨S1700000x1, .i32⟩
  | .hbm, ⟨47, _⟩ => ⟨S100000x128, .f32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096x128, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096, .f32⟩
  | .hbm, ⟨66, _⟩ => ⟨S4096x1, .f32⟩
  | .hbm, ⟨67, _⟩ => ⟨S4096x128, .f32⟩
  | .hbm, ⟨68, _⟩ => ⟨S4096x128, .f32⟩
  | .hbm, ⟨69, _⟩ => ⟨S1x128, .f32⟩
  | .hbm, ⟨70, _⟩ => ⟨S4096x128, .f32⟩
  | .hbm, ⟨71, _⟩ => ⟨S4096x128, .f32⟩
  | .hbm, ⟨72, _⟩ => ⟨S_, .f32⟩
  | .hbm, ⟨73, _⟩ => ⟨S4096x128, .f32⟩
  | .hbm, ⟨74, _⟩ => ⟨S4096x128, .f32⟩
  | .hbm, ⟨75, _⟩ => ⟨S128x128, .f32⟩
  | .hbm, ⟨76, _⟩ => ⟨S128x128, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S128x128, .f32⟩
  | .hbm, ⟨81, _⟩ => ⟨S_, .i32⟩
  | .hbm, ⟨82, _⟩ => ⟨S1, .i32⟩
  | .hbm, ⟨83, _⟩ => ⟨S128x128, .f32⟩
  | .hbm, ⟨84, _⟩ => ⟨S_, .f32⟩
  | .hbm, ⟨85, _⟩ => ⟨S1x128, .f32⟩
  | .hbm, ⟨86, _⟩ => ⟨S1x100, .f32⟩
  | .hbm, ⟨87, _⟩ => ⟨S_, .i32⟩
  | .hbm, ⟨88, _⟩ => ⟨S1, .i32⟩
  | .hbm, ⟨89, _⟩ => ⟨S1x128, .f32⟩
  | .hbm, ⟨90, _⟩ => ⟨S4096x128, .f32⟩
  | .hbm, ⟨91, _⟩ => ⟨S4096x100, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S4096x64, .f32⟩
  | .local _ .vmem, ⟨8, _⟩ => ⟨S64x128, .f32⟩
  | .local _ .vmem, ⟨9, _⟩ => ⟨S1x128, .f32⟩
  | .local _ .vmem, ⟨10, _⟩ => ⟨S4096x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4096x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  slices_S256x128_S128x128_0_0 : S256x128.Slices ![0, 0] S128x128
  slices_S256x128_S128x128_128_0 : S256x128.Slices ![128, 0] S128x128
  shapeCasts_S128_S1x128 : S128.ShapeCasts S1x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  shapeCasts_S100_S1x100 : S100.ShapeCasts S1x100
  inb_S4096x64_S4096x64_0_0 : ∀ a, (![0, 0] : Fin 2 → Nat) a + S4096x64.size a ≤ S4096x64.size a
  h_S4096x64 : 0 < S4096x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S128x128_S128x128 : S128x128.ShapeCasts S128x128
  slices_S4096x128_S4096x100_0_0 : S4096x128.Slices ![0, 0] S4096x100
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S4096x1_S4096x128_1_0_n_n_0_1_1128_wf : GatherDims.WF S100000x128 S4096x1 S4096x128 [1] [0] [] [0] [] 1 ![1, 128]
  gather_S100000_S4096x1_S4096_n_0_n_n_0_1_1_wf : GatherDims.WF S100000 S4096x1 S4096 [] [0] [] [0] [] 1 ![1]
  scatter_S128x128_S1_S128x100_01_n_1_0_wf : ScatterDims.WF S128x128 S1 S128x100 [0, 1] [] [1] 0
  scatter_S1x128_S1_S1x100_01_n_1_0_wf : ScatterDims.WF S1x128 S1 S1x100 [0, 1] [] [1] 0
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S4096x64.size a
  hwx1_0 : ∀ i : grid1.Coords, EltTy.bits .f32 = 32 ∨ (Rect.block (s := S4096x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S4096x128.size a
  hwx1_3 : ∀ i : grid1.Coords, EltTy.bits .f32 = 32 ∨ (Rect.block (s := S4096x128) S4096x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4096x128.size a ≤ S4096x128.size a
  hwx1_9 : ∀ i : grid1.Coords, EltTy.bits .f32 = 32 ∨ (Rect.block (s := S4096x128) S4096x128.size (cc1_transform_9 i) (hinb1_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf
def scatter_S128x128_S1_S128x100_01_n_1_0 : ScatterDims S128x128 S1 S128x100 where
  updateWindowDims := [0, 1]
  insertedWindowDims := []
  scatterDimsToOperandDims := [1]
  indexVectorDim := 0
  wf := scatter_S128x128_S1_S128x100_01_n_1_0_wf
def scatter_S1x128_S1_S1x100_01_n_1_0 : ScatterDims S1x128 S1 S1x100 where
  updateWindowDims := [0, 1]
  insertedWindowDims := []
  scatterDimsToOperandDims := [1]
  indexVectorDim := 0
  wf := scatter_S1x128_S1_S1x100_01_n_1_0_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4096x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4096x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v59) S4096x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4096x64 : Shape := ⟨2, ![4096, 64]⟩
abbrev S4096 : Shape := ⟨1, ![4096]⟩
abbrev S128x128 : Shape := ⟨2, ![128, 128]⟩
abbrev S128 : Shape := ⟨1, ![128]⟩
abbrev S64x128 : Shape := ⟨2, ![64, 128]⟩
abbrev S256x128 : Shape := ⟨2, ![256, 128]⟩
abbrev S128x100 : Shape := ⟨2, ![128, 100]⟩
abbrev S100 : Shape := ⟨1, ![100]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S4096x128 : Shape := ⟨2, ![4096, 128]⟩
abbrev S4096x1 : Shape := ⟨2, ![4096, 1]⟩
abbrev S4096x256 : Shape := ⟨2, ![4096, 256]⟩
abbrev S4096x100 : Shape := ⟨2, ![4096, 100]⟩
abbrev S1x100 : Shape := ⟨2, ![1, 100]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4096x64, .f32⟩
  | .hbm, ⟨3, _⟩ => ⟨S4096, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x100, .f32⟩
  | .hbm, ⟨11, _⟩ => ⟨S100, .f32⟩
  | .hbm, ⟨12, _⟩ => ⟨S100000x128, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S4096x128, .f32⟩
  | .hbm, ⟨76, _⟩ => ⟨S1x128, .f32⟩
  | .hbm, ⟨77, _⟩ => ⟨S4096x128, .f32⟩
  | .hbm, ⟨78, _⟩ => ⟨S4096x128, .f32⟩
  | .hbm, ⟨79, _⟩ => ⟨S_, .f32⟩
  | .hbm, ⟨80, _⟩ => ⟨S4096x128, .f32⟩
  | .hbm, ⟨81, _⟩ => ⟨S4096x128, .f32⟩
  | .hbm, ⟨82, _⟩ => ⟨S_, .i32⟩
  | .hbm, ⟨83, _⟩ => ⟨S4096, .i32⟩
  | .hbm, ⟨84, _⟩ => ⟨S4096, .i1⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .i32⟩
  | .hbm, ⟨89, _⟩ => ⟨S4096x1, .i32⟩
  | .hbm, ⟨90, _⟩ => ⟨S4096x128, .f32⟩
  | .hbm, ⟨91, _⟩ => ⟨S4096x256, .f32⟩
  | .hbm, ⟨92, _⟩ => ⟨S4096x128, .f32⟩
  | .hbm, ⟨93, _⟩ => ⟨S1x128, .f32⟩
  | .hbm, ⟨94, _⟩ => ⟨S4096x128, .f32⟩
  | .hbm, ⟨95, _⟩ => ⟨S4096x128, .f32⟩
  | .hbm, ⟨96, _⟩ => ⟨S_, .f32⟩
  | .hbm, ⟨97, _⟩ => ⟨S4096x128, .f32⟩
  | .hbm, ⟨98, _⟩ => ⟨S4096x128, .f32⟩
  | .hbm, ⟨99, _⟩ => ⟨S4096x100, .f32⟩
  | .hbm, ⟨100, _⟩ => ⟨S1x100, .f32⟩
  | .hbm, ⟨101, _⟩ => ⟨S4096x100, .f32⟩
  | .hbm, ⟨102, _⟩ => ⟨S4096x100, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call3_cst : Ref sig .tc := ⟨.hbm, 96, rfl⟩
abbrev main_call3_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x256_d1 : Shape.Concatenates [S4096x128, S4096x128] S4096x256 1
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4096x64_S64x128_S4096x128_1_0_0_1_n_n_wf : DotDims.WF S4096x64 S64x128 S4096x128 [1] [0] [0] [1] [] []
  gather_S100000x128_S4096x1_S4096x128_1_0_n_n_0_1_1128_wf : GatherDims.WF S100000x128 S4096x1 S4096x128 [1] [0] [] [0] [] 1 ![1, 128]
  dot_S4096x256_S256x128_S4096x128_1_0_0_1_n_n_wf : DotDims.WF S4096x256 S256x128 S4096x128 [1] [0] [0] [1] [] []
  dot_S4096x128_S128x100_S4096x100_1_0_0_1_n_n_wf : DotDims.WF S4096x128 S128x100 S4096x100 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x100_S4096x100_1_0_0_1_n_n : DotDims S4096x128 S128x100 S4096x100 where
  lhsContracting := [1]
  rhsContracting := [0]
  lhsNonContracting := [0]
  rhsNonContracting := [1]
  lhsBatch := []
  rhsBatch := []
  wf := dot_S4096x128_S128x100_S4096x100_1_0_0_1_n_n_wf

class Facts : Prop extends Facts₀ where

variable [Facts]
-- ==== Proof.KernelRun.lean ====
/-
  The idealized kernel program's run WITH ITS RESULT: every weakly fair execution of @main terminates, nothing faults, the
  twelve argument arrays end as launched, and the result buffer (the [4096, 100] slice @main returns) ends at the contents
  the last host stretch leaves, `W9 m ρ c` — the fold of the host operations and of the two pipelines' write-backs from the
  launch memory. The generated frame states the same run and keeps only the arguments; this theorem keeps the result too,
  by the same launch over the same segments, reading one more buffer off the final thread state.
-/
import proofs.«168464_j38783554683458_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its result: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.RunValue

end
-- ==== Proof.KernelHost.lean ====
/-
  The idealized kernel program's host operations, as functions of the arrays they read.

  Before the first pipeline @main builds, from the edge list, the edges' sources and destinations with one self loop per
  node appended (`srcK`, `dstK`), counts the destinations into the nodes' degrees (`degK`: an accumulation of ones) and turns
  the degrees into the normalisation factors (`dinvK`: the reciprocal square root where the degree is positive, zero
  elsewhere). Between the two pipelines it gathers the rows of the first pipeline's output at the edges' sources, adds them
  up per destination node (`aggregate`), looks the sums and the factors up at the current targets, multiplies, adds the bias
  and clips at zero (`nodeForTruck`). Each definition is the operations as printed.
-/
import proofs.«168464_j38783554683458_2_alg».proof.Proof.Gen.KernelIdeal.Frame
import Idealize.ShloMosaic.PureOps.Ideal

set_option maxRecDepth 16384

noncomputable section

namespace Cert.KernelIdeal.Chain

open Cert.KernelIdeal Cert.KernelIdeal.Gen Idealize.ShloMosaic Idealize.ShloMosaic.TcCoe

/-- The edges' sources: row 0 of the edge list, then one self loop per node. -/
def srcK (x1 : IVec S2x1600000 32) : IVec S1700000 32 :=
  concatenate S1700000 0
    [⟨S1600000, shapeCast S1600000 (extractStridedSlice S1x1600000 ![0, 0] x1 slices_S2x1600000_S1x1600000_0_0) shapeCasts_S1x1600000_S1600000⟩,
      ⟨S100000, iotaInDim S100000 32 0⟩] concatenates_S1600000_S100000_S1700000_d0

/-- The edges' destinations: row 1 of the edge list, then one self loop per node. -/
def dstK (x1 : IVec S2x1600000 32) : IVec S1700000 32 :=
  concatenate S1700000 0
    [⟨S1600000, shapeCast S1600000 (extractStridedSlice S1x1600000 ![1, 0] x1 slices_S2x1600000_S1x1600000_1_0) shapeCasts_S1x1600000_S1600000⟩,
      ⟨S100000, iotaInDim S100000 32 0⟩] concatenates_S1600000_S100000_S1700000_d0

/-- The nodes' degrees from the edges' destinations: a one accumulated at every edge's destination. -/
def degOf (dst : IVec S1700000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- The normalisation factors from the destinations: the reciprocal square root of the degree where it is positive, zero
    elsewhere. -/
def dinvOf (dst : IVec S1700000 32) : FVec Ideal S100000 .f32 :=
  select (cmpf .ogt (degOf dst) (broadcastInDim S100000 ![] bcast_S_S100000 (constant S_ .f32 0x00000000#32)))
    (Host.rsqrt (degOf dst))
    (broadcastInDim S100000 ![] bcast_S_S100000 (id (constant S_ .f32 0x00000000#32)))

/-- The degrees and the factors as functions of the edge list. -/
def degK (x1 : IVec S2x1600000 32) : FVec Ideal S100000 .f32 := degOf (dstK x1)
def dinvK (x1 : IVec S2x1600000 32) : FVec Ideal S100000 .f32 := dinvOf (dstK x1)

/-- A vector of 1,700,000 node indices with the negative ones wrapped by the node count (what a row lookup does first). -/
def wrapE (x : IVec S1700000 32) : IVec S1700000 32 :=
  select (cmpi .slt x (broadcastInDim S1700000 ![] bcast_S_S1700000 (constantI S_ 32 0#32)))
    (addi x (broadcastInDim S1700000 ![] bcast_S_S1700000 (constantI S_ 32 100000#32))) x

/-- The same for the 4096 current targets. -/
def wrapT (x : IVec S4096 32) : IVec S4096 32 :=
  select (cmpi .slt x (broadcastInDim S4096 ![] bcast_S_S4096 (constantI S_ 32 0#32)))
    (addi x (broadcastInDim S4096 ![] bcast_S_S4096 (constantI S_ 32 100000#32))) x

/-- An index vector as the one-column index matrix a lookup or an accumulation takes. -/
def colE (x : IVec S1700000 32) : IVec S1700000x1 32 := broadcastInDim S1700000x1 ![0] bcast_S1700000_S1700000x1_0 x
def colT (x : IVec S4096 32) : IVec S4096x1 32 := broadcastInDim S4096x1 ![0] bcast_S4096_S4096x1_0 x

/-- The per-node sums: the rows of `xws` at the edges' (wrapped) sources, added up at the edges' destinations. -/
def aggregate (xws : FVec Ideal S100000x128 .f32) (src dst : IVec S1700000 32) : FVec Ideal S100000x128 .f32 :=
  Host.scatterAdd scatter_S100000x128_S1700000x1_S1700000x128_1_0_0_1
    (broadcastInDim S100000x128 ![] bcast_S_S100000x128 (constant S_ .f32 0x00000000#32)) (colE dst)
    (Host.gather gather_S100000x128_S1700000x1_S1700000x128_1_0_n_n_0_1_1128 xws (colE (wrapE src)))

/-- The node features handed to the second pipeline: the sums and the factors looked up at the current targets,
    multiplied, plus the bias, clipped at zero. -/
def nodeForTruck (xws : FVec Ideal S100000x128 .f32) (src dst : IVec S1700000 32) (dinv : FVec Ideal S100000 .f32)
    (ct : IVec S4096 32) (b : FVec Ideal S128 .f32) : FVec Ideal S4096x128 .f32 :=
  maximumf
    (addf
      (mulf (Host.gather gather_S100000x128_S4096x1_S4096x128_1_0_n_n_0_1_1128 (aggregate xws src dst) (colT (wrapT ct)))
        (broadcastInDim S4096x128 ![0, 1] bcast_S4096x1_S4096x128_0_1
          (broadcastInDim S4096x1 ![0] bcast_S4096_S4096x1_0
            (Host.gather gather_S100000_S4096x1_S4096_n_0_n_n_0_1_1 dinv (colT (wrapT ct))))))
      (broadcastInDim S4096x128 ![0, 1] bcast_S1x128_S4096x128_0_1 (broadcastInDim S1x128 ![1] bcast_S128_S1x128_1 b)))
    (broadcastInDim S4096x128 ![] bcast_S_S4096x128 (constant S_ .f32 0x00000000#32))

end Cert.KernelIdeal.Chain

end
-- ==== Proof.LibAfterSplit.lean ====
/-
  A straight line of host operations run in two parts: the contents after the whole line are the contents after its tail
  run from the contents after its head.
-/
import Idealize.ShloMosaic.Lib.StableHlo.Run

noncomputable section

namespace Cert.Lib.AfterSplit

open Idealize.ShloMosaic Idealize.ShloMosaic.StableHlo

variable {τ : Topo} {sig : RefSig} {Val : EltTy → Type}

/-- Running a concatenated line is running the second part from where the first part ends. -/
theorem after_append (L₁ L₂ : List (HloOp τ sig Val)) (V : Valuation τ sig Val) :
    StableHlo.after (L₁ ++ L₂) V = StableHlo.after L₂ (StableHlo.after L₁ V) := by
  induction L₁ generalizing V with
  | nil => rfl
  | cons op ops ih => exact ih (op.result V)

/-- Any line splits after its first `n` operations. -/
theorem after_take_drop (n : Nat) (L : List (HloOp τ sig Val)) (V : Valuation τ sig Val) :
    StableHlo.after L V = StableHlo.after (L.drop n) (StableHlo.after (L.take n) V) := by
  rw [← after_append, List.take_append_drop]

end Cert.Lib.AfterSplit

end
-- ==== Proof.KernelPrefix.lean ====
/-
  The stretch of host operations before the first pipeline, read at the buffers later segments use, from ANY contents `W`
  of the buffers when the stretch starts. The sources and the destinations are read off the first seven operations; the
  degrees, the comparison with zero and the reciprocal square root off the next twelve, which read the destinations only;
  the selection between the reciprocal square root and zero off the three operations of the selecting function; the
  one-column form off the last one. So the stretch is run in those parts (LibAfterSplit.lean), each stated from any contents.
-/
import proofs.«168464_j38783554683458_2_alg».proof.Proof.KernelHost
import proofs.«168464_j38783554683458_2_alg».proof.Proof.LibAfterSplit
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.Lib.AfterSplit

variable (W : Valuation τ sig (Elt Ideal))

local notation "pre" => StableHlo.after hostOps0_2 (StableHlo.after hostOps0_1 (StableHlo.after hostOps0 W))

set_option maxHeartbeats 4000000 in
/-- The sources after the whole stretch. -/
theorem pre_v3 : pre (Proc.devRef .tc main_v3) = srcK (W (Proc.devRef .tc main_arg1)) := by
  after_results_simp <;> rfl
set_option maxHeartbeats 4000000 in
/-- The destinations after the whole stretch. -/
theorem pre_v6 : pre (Proc.devRef .tc main_v6) = dstK (W (Proc.devRef .tc main_arg1)) := by
  after_results_simp <;> rfl

/-- The destinations after the first seven operations. -/
theorem head_v6 : StableHlo.after (hostOps0.take 7) W (Proc.devRef .tc main_v6) = dstK (W (Proc.devRef .tc main_arg1)) := by
  simp only [hostOps0, List.take]
  after_results_simp <;> rfl

/-- "The degree is positive", from the contents the remaining twelve operations start from. -/
theorem rest_v12 : StableHlo.after (hostOps0.drop 7) W (Proc.devRef .tc main_v12)
    = cmpf .ogt (degOf (W (Proc.devRef .tc main_v6))) (broadcastInDim S100000 ![] bcast_S_S100000 (constant S_ .f32 0x00000000#32)) := by
  simp only [hostOps0, List.drop]
  after_results_simp <;> rfl

/-- The reciprocal square root of the degree. -/
theorem rest_v13 : StableHlo.after (hostOps0.drop 7) W (Proc.devRef .tc main_v13)
    = Host.rsqrt (degOf (W (Proc.devRef .tc main_v6))) := by
  simp only [hostOps0, List.drop]
  after_results_simp <;> rfl

/-- The zero the selection falls back to. -/
theorem rest_cst2 : StableHlo.after (hostOps0.drop 7) W (Proc.devRef .tc main_cst_2)
    = constant (F := Ideal) S_ .f32 0x00000000#32 := by
  simp only [hostOps0, List.drop]
  after_results_simp <;> rfl

/-- The selecting function's three operations: its result from the buffers it reads. -/
theorem call_v14 : StableHlo.after hostOps0_1 W (Proc.devRef .tc main_v14)
    = select (W (Proc.devRef .tc main_v12)) (W (Proc.devRef .tc main_v13))
        (broadcastInDim S100000 ![] bcast_S_S100000 (id (W (Proc.devRef .tc main_cst_2)))) := by
  after_results_simp <;> rfl

/-- The last operation: the factors as a one-column matrix; it leaves the factors themselves alone. -/
theorem resh_v15 : StableHlo.after hostOps0_2 W (Proc.devRef .tc main_v15)
    = shapeCast S100000x1 (W (Proc.devRef .tc main_v14)) shapeCasts_S100000_S100000x1 := by
  after_results_simp <;> rfl
theorem resh_keep_v14 : StableHlo.after hostOps0_2 W (Proc.devRef .tc main_v14) = W (Proc.devRef .tc main_v14) := by
  after_results_simp <;> rfl

/-- The factors, from the contents the operations after the seventh start from. -/
theorem tail_v14 : StableHlo.after hostOps0_2 (StableHlo.after hostOps0_1 (StableHlo.after (hostOps0.drop 7) W)) (Proc.devRef .tc main_v14)
    = dinvOf (W (Proc.devRef .tc main_v6)) := by
  rw [resh_keep_v14, call_v14, rest_v12, rest_v13, rest_cst2]
  rfl

/-- The factors as the one-column matrix the first pipeline stages. -/
theorem tail_v15 : StableHlo.after hostOps0_2 (StableHlo.after hostOps0_1 (StableHlo.after (hostOps0.drop 7) W)) (Proc.devRef .tc main_v15)
    = shapeCast S100000x1 (dinvOf (W (Proc.devRef .tc main_v6))) shapeCasts_S100000_S100000x1 := by
  rw [resh_v15, call_v14, rest_v12, rest_v13, rest_cst2]
  rfl

/-- The factors after the whole stretch. -/
theorem pre_v14 : pre (Proc.devRef .tc main_v14) = dinvK (W (Proc.devRef .tc main_arg1)) := by
  rw [after_take_drop 7 hostOps0 W]
  exact (tail_v14 _).trans (congrArg dinvOf (head_v6 W))

/-- The one-column form after the whole stretch. -/
theorem pre_v15 : pre (Proc.devRef .tc main_v15)
    = shapeCast S100000x1 (dinvK (W (Proc.devRef .tc main_arg1))) shapeCasts_S100000_S100000x1 := by
  rw [after_take_drop 7 hostOps0 W]
  exact (tail_v15 _).trans (congrArg (fun d => shapeCast S100000x1 (dinvOf d) shapeCasts_S100000_S100000x1) (head_v6 W))

end Cert.KernelIdeal.Chain

end
-- ==== Proof.KernelPrefixKeep.lean ====
/-
  The stretch of host operations before the first pipeline writes none of @main's arguments: each argument's buffer holds
  after the stretch what it held before, whatever that was.
-/
import proofs.«168464_j38783554683458_2_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (W : Valuation τ sig (Elt Ideal))

theorem pre_arg0 : StableHlo.after hostOps0_2 (StableHlo.after hostOps0_1 (StableHlo.after hostOps0 W)) (Proc.devRef .tc main_arg0) = W (Proc.devRef .tc main_arg0) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg2 : StableHlo.after hostOps0_2 (StableHlo.after hostOps0_1 (StableHlo.after hostOps0 W)) (Proc.devRef .tc main_arg2) = W (Proc.devRef .tc main_arg2) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg3 : StableHlo.after hostOps0_2 (StableHlo.after hostOps0_1 (StableHlo.after hostOps0 W)) (Proc.devRef .tc main_arg3) = W (Proc.devRef .tc main_arg3) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg4 : StableHlo.after hostOps0_2 (StableHlo.after hostOps0_1 (StableHlo.after hostOps0 W)) (Proc.devRef .tc main_arg4) = W (Proc.devRef .tc main_arg4) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg5 : StableHlo.after hostOps0_2 (StableHlo.after hostOps0_1 (StableHlo.after hostOps0 W)) (Proc.devRef .tc main_arg5) = W (Proc.devRef .tc main_arg5) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg6 : StableHlo.after hostOps0_2 (StableHlo.after hostOps0_1 (StableHlo.after hostOps0 W)) (Proc.devRef .tc main_arg6) = W (Proc.devRef .tc main_arg6) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg7 : StableHlo.after hostOps0_2 (StableHlo.after hostOps0_1 (StableHlo.after hostOps0 W)) (Proc.devRef .tc main_arg7) = W (Proc.devRef .tc main_arg7) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg8 : StableHlo.after hostOps0_2 (StableHlo.after hostOps0_1 (StableHlo.after hostOps0 W)) (Proc.devRef .tc main_arg8) = W (Proc.devRef .tc main_arg8) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg9 : StableHlo.after hostOps0_2 (StableHlo.after hostOps0_1 (StableHlo.after hostOps0 W)) (Proc.devRef .tc main_arg9) = W (Proc.devRef .tc main_arg9) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg10 : StableHlo.after hostOps0_2 (StableHlo.after hostOps0_1 (StableHlo.after hostOps0 W)) (Proc.devRef .tc main_arg10) = W (Proc.devRef .tc main_arg10) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))
theorem pre_arg11 : StableHlo.after hostOps0_2 (StableHlo.after hostOps0_1 (StableHlo.after hostOps0 W)) (Proc.devRef .tc main_arg11) = W (Proc.devRef .tc main_arg11) :=
  ((StableHlo.after_of_forall_not_mem _ _ (List.forall_iff_forall_mem.mp (by
    simp only [hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((StableHlo.after_of_forall_not_mem _ _ (List.forall_iff_forall_mem.mp (by
    simp only [hostOps0_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps0, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))))

end Cert.KernelIdeal.Chain

end
-- ==== Proof.KernelMiddle.lean ====
/-
  The host operations between the two pipelines, from ANY contents `W` of the buffers when the stretch starts, run in five
  parts (LibAfterSplit.lean), each read at the one buffer it produces for the next and at the buffers it leaves alone:
  the lookup of the first pipeline's rows at the edges' sources; their accumulation per destination node; the lookup of the
  sums at the current targets; the lookup of the factors at the current targets; the product, the bias and — in the short
  stretch that follows — the clip at zero. Put together they are `nodeForTruck`.
-/
import proofs.«168464_j38783554683458_2_alg».proof.Proof.KernelHost
import proofs.«168464_j38783554683458_2_alg».proof.Proof.LibAfterSplit
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.Lib.AfterSplit

variable (W : Valuation τ sig (Elt Ideal))

/-! ## Part 1: the rows at the edges' sources -/

set_option maxHeartbeats 2000000 in
theorem segA_v23 : StableHlo.after (hostOps1.take 9) W (Proc.devRef .tc main_v23) = Host.gather gather_S100000x128_S1700000x1_S1700000x128_1_0_n_n_0_1_1128 (W (Proc.devRef .tc main_v16)) (colE (wrapE (W (Proc.devRef .tc main_v3)))) := by
  simp only [hostOps1, List.take, List.drop]
  after_results_simp <;> rfl
theorem segA_keep_v6 : StableHlo.after (hostOps1.take 9) W (Proc.devRef .tc main_v6) = W (Proc.devRef .tc main_v6) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem segA_keep_v14 : StableHlo.after (hostOps1.take 9) W (Proc.devRef .tc main_v14) = W (Proc.devRef .tc main_v14) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem segA_keep_arg3 : StableHlo.after (hostOps1.take 9) W (Proc.devRef .tc main_arg3) = W (Proc.devRef .tc main_arg3) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem segA_keep_arg5 : StableHlo.after (hostOps1.take 9) W (Proc.devRef .tc main_arg5) = W (Proc.devRef .tc main_arg5) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Part 2: the sums per destination node -/

set_option maxHeartbeats 2000000 in
theorem segB_v26 : StableHlo.after ((hostOps1.drop 9).take 4) W (Proc.devRef .tc main_v26) = Host.scatterAdd (F := Ideal) scatter_S100000x128_S1700000x1_S1700000x128_1_0_0_1 (broadcastInDim S100000x128 ![] bcast_S_S100000x128 (constant S_ .f32 0x00000000#32)) (colE (W (Proc.devRef .tc main_v6))) (W (Proc.devRef .tc main_v23)) := by
  simp only [hostOps1, List.take, List.drop]
  after_results_simp <;> rfl
theorem segB_keep_v14 : StableHlo.after ((hostOps1.drop 9).take 4) W (Proc.devRef .tc main_v14) = W (Proc.devRef .tc main_v14) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem segB_keep_arg3 : StableHlo.after ((hostOps1.drop 9).take 4) W (Proc.devRef .tc main_arg3) = W (Proc.devRef .tc main_arg3) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem segB_keep_arg5 : StableHlo.after ((hostOps1.drop 9).take 4) W (Proc.devRef .tc main_arg5) = W (Proc.devRef .tc main_arg5) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Part 3: the sums at the current targets -/

set_option maxHeartbeats 2000000 in
theorem segC_v33 : StableHlo.after (((hostOps1.drop 9).drop 4).take 9) W (Proc.devRef .tc main_v33) = Host.gather gather_S100000x128_S4096x1_S4096x128_1_0_n_n_0_1_1128 (W (Proc.devRef .tc main_v26)) (colT (wrapT (W (Proc.devRef .tc main_arg3)))) := by
  simp only [hostOps1, List.take, List.drop]
  after_results_simp <;> rfl
theorem segC_keep_v14 : StableHlo.after (((hostOps1.drop 9).drop 4).take 9) W (Proc.devRef .tc main_v14) = W (Proc.devRef .tc main_v14) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem segC_keep_arg3 : StableHlo.after (((hostOps1.drop 9).drop 4).take 9) W (Proc.devRef .tc main_arg3) = W (Proc.devRef .tc main_arg3) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem segC_keep_arg5 : StableHlo.after (((hostOps1.drop 9).drop 4).take 9) W (Proc.devRef .tc main_arg5) = W (Proc.devRef .tc main_arg5) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Part 4: the factors at the current targets -/

set_option maxHeartbeats 2000000 in
theorem segD_v40 : StableHlo.after ((((hostOps1.drop 9).drop 4).drop 9).take 9) W (Proc.devRef .tc main_v40) = Host.gather gather_S100000_S4096x1_S4096_n_0_n_n_0_1_1 (W (Proc.devRef .tc main_v14)) (colT (wrapT (W (Proc.devRef .tc main_arg3)))) := by
  simp only [hostOps1, List.take, List.drop]
  after_results_simp <;> rfl
theorem segD_keep_v33 : StableHlo.after ((((hostOps1.drop 9).drop 4).drop 9).take 9) W (Proc.devRef .tc main_v33) = W (Proc.devRef .tc main_v33) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem segD_keep_arg5 : StableHlo.after ((((hostOps1.drop 9).drop 4).drop 9).take 9) W (Proc.devRef .tc main_arg5) = W (Proc.devRef .tc main_arg5) :=
  StableHlo.after_of_forall_not_mem _ _ (List.forall_iff_forall_mem.mp (by
    simp only [hostOps1, hostOps1_1, hostOps0, hostOps0_1, hostOps0_2, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Part 5: the product and the bias; then the clip at zero -/

set_option maxHeartbeats 2000000 in
theorem segE_v46 : StableHlo.after ((((hostOps1.drop 9).drop 4).drop 9).drop 9) W (Proc.devRef .tc main_v46) = addf (F := Ideal) (s := S4096x128) (φ := .f32) (mulf (F := Ideal) (s := S4096x128) (φ := .f32) (W (Proc.devRef .tc main_v33)) (broadcastInDim S4096x128 ![0, 1] bcast_S4096x1_S4096x128_0_1 (broadcastInDim S4096x1 ![0] bcast_S4096_S4096x1_0 (W (Proc.devRef .tc main_v40))))) (broadcastInDim S4096x128 ![0, 1] bcast_S1x128_S4096x128_0_1 (broadcastInDim S1x128 ![1] bcast_S128_S1x128_1 (W (Proc.devRef .tc main_arg5)))) := by
  simp only [hostOps1, List.take, List.drop]
  after_results_simp <;> rfl

set_option maxHeartbeats 2000000 in
theorem clip_v47 : StableHlo.after hostOps1_1 W (Proc.devRef .tc main_v47)
    = maximumf (F := Ideal) (s := S4096x128) (φ := .f32) (W (Proc.devRef .tc main_v46)) (broadcastInDim S4096x128 ![] bcast_S_S4096x128 (constant S_ .f32 0x00000000#32)) := by
  after_results_simp <;> rfl

/-! ## Together -/

theorem mid_v47 : StableHlo.after hostOps1_1 (StableHlo.after hostOps1 W) (Proc.devRef .tc main_v47)
    = nodeForTruck (W (Proc.devRef .tc main_v16)) (W (Proc.devRef .tc main_v3)) (W (Proc.devRef .tc main_v6))
        (W (Proc.devRef .tc main_v14)) (W (Proc.devRef .tc main_arg3)) (W (Proc.devRef .tc main_arg5)) := by
  rw [after_take_drop 9 hostOps1 W, after_take_drop 4 (hostOps1.drop 9), after_take_drop 9 ((hostOps1.drop 9).drop 4), after_take_drop 9 (((hostOps1.drop 9).drop 4).drop 9)]
  rw [clip_v47, segE_v46, segD_v40, segD_keep_v33, segD_keep_arg5, segC_v33, segC_keep_v14, segC_keep_arg3, segC_keep_arg5,
    segB_v26, segB_keep_v14, segB_keep_arg3, segB_keep_arg5, segA_v23, segA_keep_v6, segA_keep_v14, segA_keep_arg3, segA_keep_arg5]
  rfl

end Cert.KernelIdeal.Chain

end
-- ==== Proof.KernelMiddleKeep.lean ====
/-
  The host operations between the two pipelines write none of the arguments the second pipeline and its surrounding
  operations read: each of those buffers holds after the stretch what it held before.
-/
import proofs.«168464_j38783554683458_2_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (W : Valuation τ sig (Elt Ideal))

theorem mid_arg2 : StableHlo.after hostOps1_1 (StableHlo.after hostOps1 W) (Proc.devRef .tc main_arg2) = W (Proc.devRef .tc main_arg2) :=
  ((StableHlo.after_of_forall_not_mem _ _ (List.forall_iff_forall_mem.mp (by
    simp only [hostOps1_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))
theorem mid_arg6 : StableHlo.after hostOps1_1 (StableHlo.after hostOps1 W) (Proc.devRef .tc main_arg6) = W (Proc.devRef .tc main_arg6) :=
  ((StableHlo.after_of_forall_not_mem _ _ (List.forall_iff_forall_mem.mp (by
    simp only [hostOps1_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))
theorem mid_arg7 : StableHlo.after hostOps1_1 (StableHlo.after hostOps1 W) (Proc.devRef .tc main_arg7) = W (Proc.devRef .tc main_arg7) :=
  ((StableHlo.after_of_forall_not_mem _ _ (List.forall_iff_forall_mem.mp (by
    simp only [hostOps1_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))
theorem mid_arg8 : StableHlo.after hostOps1_1 (StableHlo.after hostOps1 W) (Proc.devRef .tc main_arg8) = W (Proc.devRef .tc main_arg8) :=
  ((StableHlo.after_of_forall_not_mem _ _ (List.forall_iff_forall_mem.mp (by
    simp only [hostOps1_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))
theorem mid_arg9 : StableHlo.after hostOps1_1 (StableHlo.after hostOps1 W) (Proc.devRef .tc main_arg9) = W (Proc.devRef .tc main_arg9) :=
  ((StableHlo.after_of_forall_not_mem _ _ (List.forall_iff_forall_mem.mp (by
    simp only [hostOps1_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))
theorem mid_arg10 : StableHlo.after hostOps1_1 (StableHlo.after hostOps1 W) (Proc.devRef .tc main_arg10) = W (Proc.devRef .tc main_arg10) :=
  ((StableHlo.after_of_forall_not_mem _ _ (List.forall_iff_forall_mem.mp (by
    simp only [hostOps1_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))
theorem mid_arg11 : StableHlo.after hostOps1_1 (StableHlo.after hostOps1 W) (Proc.devRef .tc main_arg11) = W (Proc.devRef .tc main_arg11) :=
  ((StableHlo.after_of_forall_not_mem _ _ (List.forall_iff_forall_mem.mp (by
    simp only [hostOps1_1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (StableHlo.after_of_forall_not_mem _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))

end Cert.KernelIdeal.Chain

end
-- ==== Proof.GcnSpec.lean ====
/-
  The graph-convolution stage as plain functions of extended-real arrays.

  `scaledProj x w d` is the projected feature matrix with each node's row scaled by that node's normalisation factor:
  entry (u, j) is (∑ₖ x[u,k] · w[k,j]) · d[u,0], the factor kept as a one-column matrix. This is what the tiled
  matrix-product kernel writes, block of rows by block of rows.
-/
import Idealize.ShloMosaic.Lib.ValueIdx

noncomputable section

open scoped BigOperators

namespace Cert.Gcn

open Idealize.ShloMosaic Idealize.ShloMosaic.ValueIdx

/-- An extended-real matrix with `a` rows and `b` columns. -/
abbrev Mat (a b : Nat) := (⟨2, ![a, b]⟩ : Shape).Idx → EReal
/-- An extended-real vector of length `n`. -/
abbrev Vc (n : Nat) := (⟨1, ![n]⟩ : Shape).Idx → EReal

/-- Entry (u, j) of the scaled projection: the u-th row of `x` against the j-th column of `w`, times node u's factor. -/
def scaledProjAt (x : Mat 100000 128) (w : Mat 128 128) (d : Mat 100000 1) (u : Fin 100000) (j : Fin 128) : EReal :=
  (∑ k : Fin 128, x (ix2 u k) * w (ix2 k j)) * d (ix2 u (0 : Fin 1))

/-- The scaled projection as an array. -/
def scaledProj (x : Mat 100000 128) (w : Mat 128 128) (d : Mat 100000 1) : Mat 100000 128 :=
  fun i => scaledProjAt x w d (i 0) (i 1)

theorem scaledProj_apply (x : Mat 100000 128) (w : Mat 128 128) (d : Mat 100000 1) (u : Fin 100000) (j : Fin 128) :
    scaledProj x w d (ix2 u j) = scaledProjAt x w d u j := rfl

end Cert.Gcn

end
-- ==== Proof.Region0Value.lean ====
/-
  What the tiled matrix-product pipeline leaves in its output array.

  The grid has 20 points; point t stages rows [5000·t, 5000·t + 5000) of the node features (all 128 columns), the whole
  128 × 128 weight matrix, and the same 5000 rows of the one-column matrix of normalisation factors, and writes back the
  same 5000 rows of the output. The body multiplies the row block by the weights (the change of format on the way in is
  the identity on extended reals, and the accumulator is the zero matrix) and scales every row by its factor. So block t
  of the output is block t of ONE whole-array function, `Cert.Gcn.scaledProj` of the three arrays as the pipeline finds
  them, and since the 20 row blocks cover the array, that function is what the array holds after the last point.
-/
import proofs.«168464_j38783554683458_2_alg».proof.Proof.Gen.KernelIdeal.Frame
import proofs.«168464_j38783554683458_2_alg».proof.Proof.GcnSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/-- The body's matrix product: a 5000 × 128 block against the 128 × 128 weights, one contracted axis. -/
abbrev D0 := dot_S5000x128_S128x128_S5000x128_1_0_0_1_n_n

/-- The left operand's index for output entry (r, j) and contraction coordinate k is (r, k). -/
theorem lhsIdx_eq (r : Fin 5000) (j k : Fin 128) :
    D0.lhsIdx (ix2 r j) ((contrEquiv1 D0 128 rfl rfl).symm k) = ix2 r k := by
  funext a; apply Fin.ext
  match a with
  | ⟨0, _⟩ =>
    show (D0.lhsIdx (ix2 r j) ((contrEquiv1 D0 128 rfl rfl).symm k) 0).val = r.val
    unfold DotDims.lhsIdx
    rw [dif_neg (show ¬(0 : Fin S5000x128.rank) ∈ D0.lhsBatch by decide), dif_pos (show (0 : Fin S5000x128.rank) ∈ D0.lhsNonContracting by decide)]
    rfl
  | ⟨1, _⟩ => exact (D0.lhsIdx_val_of_single rfl (ix2 r j) _).trans (contrEquiv1_symm_val D0 128 rfl rfl k)

/-- The right operand's index for output entry (r, j) and contraction coordinate k is (k, j). -/
theorem rhsIdx_eq (r : Fin 5000) (j k : Fin 128) :
    D0.rhsIdx (ix2 r j) ((contrEquiv1 D0 128 rfl rfl).symm k) = ix2 k j := by
  funext a; apply Fin.ext
  match a with
  | ⟨0, _⟩ => exact (D0.rhsIdx_val_of_single rfl (ix2 r j) _).trans (contrEquiv1_symm_val D0 128 rfl rfl k)
  | ⟨1, _⟩ =>
    show (D0.rhsIdx (ix2 r j) ((contrEquiv1 D0 128 rfl rfl).symm k) 1).val = j.val
    unfold DotDims.rhsIdx
    rw [dif_neg (show ¬(1 : Fin S128x128.rank) ∈ D0.rhsBatch by decide), dif_pos (show (1 : Fin S128x128.rank) ∈ D0.rhsNonContracting by decide)]
    rfl

/-- The product into a zero accumulator, at entry (r, j): the plain sum over the contracted coordinate. -/
theorem matmul_at (a : FVec Ideal S5000x128 .bf16) (b : FVec Ideal S128x128 .bf16) (r : Fin 5000) (j : Fin 128) :
    matmul D0 none a b (constant S5000x128 .f32 0x00000000#32) (ix2 r j) = ∑ k : Fin 128, a (ix2 r k) * b (ix2 k j) := by
  refine (Ideal.matmul_constant_zero_apply D0 none a b (ix2 r j)).trans ?_
  rw [← Equiv.sum_comp (contrEquiv1 D0 128 rfl rfl).symm]
  refine Finset.sum_congr rfl fun k _ => ?_
  rw [lhsIdx_eq, rhsIdx_eq]

/-- The one-column block of factors, spread over 128 columns, read at (r, j): the factor of row r. -/
theorem factor_at (x2 : Vec Ideal S5000x1 .f32) (r : Fin 5000) (j : Fin 128) :
    broadcastTo S5000x128 (shapeCast S5000x1 x2 shapeCasts_S5000x1_S5000x1) broadcasts_S5000x1_S5000x128 (ix2 r j) = x2 (ix2 r (0 : Fin 1)) := by
  rw [shapeCast_self]
  refine broadcastTo_apply x2 broadcasts_S5000x1_S5000x128 (ix2 r j) (ix2 r (0 : Fin 1)) fun a => ?_
  match a with
  | ⟨0, _⟩ => rfl
  | ⟨1, _⟩ => rfl

/-- The body's stored value at entry (r, j) of the block: the row-by-column sum, times the row's factor. -/
theorem pay_apply (x0 : Vec Ideal S5000x128 .f32) (x1 : Vec Ideal S128x128 .f32) (x2 : Vec Ideal S5000x1 .f32) (r : Fin 5000) (j : Fin 128) :
    k0_pay1 (F := Ideal) x0 x1 x2 (ix2 r j) = (∑ k : Fin 128, x0 (ix2 r k) * x1 (ix2 k j)) * x2 (ix2 r (0 : Fin 1)) := by
  unfold k0_pay1
  rw [mulf_apply, matmul_at, factor_at]
  rfl

end Cert.KernelIdeal.Region0

end
-- ==== Proof.Region0Array.lean ====
/-
  From the blocks to the array: the 20 row blocks the matrix-product pipeline writes back are the blocks of ONE function
  of the arrays it reads, and they cover the output, so the output array ends at that function.

  Point t's blocks sit at rows 5000·t … 5000·t + 4999 of the node features, of the factor column and of the output; the
  weight matrix is staged whole at every point. An element (r, j) of the output block is therefore row 5000·t + r of the
  features against column j of the weights, times the factor of node 5000·t + r.
-/
import proofs.«168464_j38783554683458_2_alg».proof.Proof.Region0Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the row blocks move with the grid point, everything else stays at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 20 := lt_of_lt_of_eq t.isLt N_0

/-- Element (r, j) of point t's output block, as the body leaves it, is entry (5000·t + r, j) of the scaled projection of
    the arrays the pipeline reads. -/
theorem block_eq (c : Dev nD) (t : Fin cfg0.N) (y : S5000x128.Idx) :
    k0_pay1 (F := Ideal) (iblk0 V c 0 t) (iblk0 V c 1 t) (iblk0 V c 2 t) y
      = Cert.Gcn.scaledProj (V c main_arg0) (V c main_arg4) (V c main_v15) (((cfg0.win 3).blk t).view.emb y) := by
  obtain ⟨r, j, rfl⟩ : ∃ (r : Fin 5000) (j : Fin 128), y = ix2 r j := ⟨y 0, y 1, eq_ix2 y⟩
  obtain ⟨e00, e01, e10, e11, e20, e21, e30, e31⟩ := idx_facts t
  have ht := t_lt t
  have hr : r.val < 5000 := r.isLt
  refine (pay_apply (iblk0 V c 0 t) (iblk0 V c 1 t) (iblk0 V c 2 t) r j).trans ?_
  have h3 : ((cfg0.win 3).blk t).view.emb (ix2 r j) = ix2 (⟨t.val * 5000 + r.val, by omega⟩ : Fin 100000) j := by
    funext a; apply Fin.ext
    match a with
    | ⟨0, _⟩ => show win0_3.index t (0 : Fin 2) * 5000 + 1 * r.val = t.val * 5000 + r.val; omega
    | ⟨1, _⟩ => show win0_3.index t (1 : Fin 2) * 128 + 1 * j.val = j.val; omega
  have h0 : ∀ k : Fin 128, iblk0 V c 0 t (ix2 r k) = V c main_arg0 (ix2 (⟨t.val * 5000 + r.val, by omega⟩ : Fin 100000) k) := fun k => by
    show V c main_arg0 (((cfg0.win 0).blk t).view.emb (ix2 r k)) = _
    refine congrArg (V c main_arg0) (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * k.val = k.val; omega
  have h1 : ∀ k : Fin 128, iblk0 V c 1 t (ix2 k j) = V c main_arg4 (ix2 k j) := fun k => by
    show V c main_arg4 (((cfg0.win 1).blk t).view.emb (ix2 k j)) = _
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 128 + 1 * j.val = j.val; omega
  have h2 : iblk0 V c 2 t (ix2 r (0 : Fin 1)) = V c main_v15 (ix2 (⟨t.val * 5000 + r.val, by omega⟩ : Fin 100000) (0 : Fin 1)) := by
    show V c main_v15 (((cfg0.win 2).blk t).view.emb (ix2 r (0 : Fin 1))) = _
    refine congrArg (V c main_v15) (funext fun a => Fin.ext ?_)
    match a with
    | ⟨0, _⟩ => show win0_2.index t (0 : Fin 2) * 5000 + 1 * r.val = t.val * 5000 + r.val; omega
    | ⟨1, _⟩ => show win0_2.index t (1 : Fin 2) * 1 + 1 * 0 = 0; omega
  rw [h3, Cert.Gcn.scaledProj_apply, h2]
  unfold Cert.Gcn.scaledProjAt
  refine congrArg (· * _) (Finset.sum_congr rfl fun k _ => ?_)
  rw [h0 k, h1 k]

/-- What point t writes back is block t of the scaled projection. -/
theorem flushed_eq (c : Dev nD) (t : Fin cfg0.N) :
    (dat0 V c).flushed 3 t = ((cfg0.win 3).blk t).view.read (Elt Ideal) (Cert.Gcn.scaledProj (V c main_arg0) (V c main_arg4) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext y
  exact block_eq V c t y

/-- An index of the output array is in point t's block iff its row lies in the block's 5000 rows. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every index of the output array is in the block of the point numbered by its row divided by 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, e30, e31⟩ := idx_facts t
  have e30' : win0_3.index t (0 : Fin 2) = (i 0).val / 5000 := e30
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the last grid point: the scaled projection of the arrays the pipeline read. -/
theorem final (c : Dev nD) :
    (dat0 V c).arrAt 3 cfg0.N = Cert.Gcn.scaledProj (V c main_arg0) (V c main_arg4) (V c main_v15) :=
  (dat0 V c).arrAt_eq_of_cover 3 _ (fun t _ => flushed_eq V c t) cover

end Cert.KernelIdeal.Region0

end
-- ==== Proof.KernelResult.lean ====
/-
  The buffers the second pipeline's stretch starts from, in terms of @main's arguments.

  Walking the fold back from the clip at zero: the operations between the pipelines read the first pipeline's output (the
  scaled projection of the node features, Region0Array.lean) and the sources, destinations and factors the first stretch
  built from the edge list; no operation up to there writes an argument. So the node features are `nodeForTruck` of the
  scaled projection and of those three functions of the edge list, and every argument is as launched.
-/
import proofs.«168464_j38783554683458_2_alg».proof.Proof.KernelPrefix
import proofs.«168464_j38783554683458_2_alg».proof.Proof.KernelPrefixKeep
import proofs.«168464_j38783554683458_2_alg».proof.Proof.KernelMiddle
import proofs.«168464_j38783554683458_2_alg».proof.Proof.KernelMiddleKeep
import proofs.«168464_j38783554683458_2_alg».proof.Proof.Region0Array

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The first pipeline's output array when the pipeline is left. -/
theorem W4_v16 (c : Dev nD) : W4 m ρ c (Proc.devRef .tc main_v16)
    = Cert.Gcn.scaledProj (m ((c : Thread nD τ).loc main_arg0)) (m ((c : Thread nD τ).loc main_arg4))
        (shapeCast S100000x1 (dinvK (m ((c : Thread nD τ).loc main_arg1))) shapeCasts_S100000_S100000x1) := by
  refine ((W4_arr m ρ c 3).trans (Region0.final (V3 m ρ) c)).trans ?_
  have h0 : V3 m ρ c main_arg0 = m ((c : Thread nD τ).loc main_arg0) := pre_arg0 (W0 m ρ c)
  have h4 : V3 m ρ c main_arg4 = m ((c : Thread nD τ).loc main_arg4) := pre_arg4 (W0 m ρ c)
  have h15 : V3 m ρ c main_v15 = shapeCast S100000x1 (dinvK (m ((c : Thread nD τ).loc main_arg1))) shapeCasts_S100000_S100000x1 :=
    pre_v15 (W0 m ρ c)
  rw [h0, h4, h15]

theorem W4_v3 (c : Dev nD) : W4 m ρ c (Proc.devRef .tc main_v3) = srcK (m ((c : Thread nD τ).loc main_arg1)) :=
  (W4_of_ne m ρ c main_v3 (by decide)).trans (pre_v3 (W0 m ρ c))
theorem W4_v6 (c : Dev nD) : W4 m ρ c (Proc.devRef .tc main_v6) = dstK (m ((c : Thread nD τ).loc main_arg1)) :=
  (W4_of_ne m ρ c main_v6 (by decide)).trans (pre_v6 (W0 m ρ c))
theorem W4_v14 (c : Dev nD) : W4 m ρ c (Proc.devRef .tc main_v14) = dinvK (m ((c : Thread nD τ).loc main_arg1)) :=
  (W4_of_ne m ρ c main_v14 (by decide)).trans (pre_v14 (W0 m ρ c))
theorem W4_arg3 (c : Dev nD) : W4 m ρ c (Proc.devRef .tc main_arg3) = m ((c : Thread nD τ).loc main_arg3) :=
  (W4_of_ne m ρ c main_arg3 (by decide)).trans (pre_arg3 (W0 m ρ c))
theorem W4_arg5 (c : Dev nD) : W4 m ρ c (Proc.devRef .tc main_arg5) = m ((c : Thread nD τ).loc main_arg5) :=
  (W4_of_ne m ρ c main_arg5 (by decide)).trans (pre_arg5 (W0 m ρ c))

/-- THE NODE FEATURES the second pipeline's stretch starts from. -/
theorem W6_v47 (c : Dev nD) : W6 m ρ c (Proc.devRef .tc main_v47)
    = nodeForTruck
        (Cert.Gcn.scaledProj (m ((c : Thread nD τ).loc main_arg0)) (m ((c : Thread nD τ).loc main_arg4))
          (shapeCast S100000x1 (dinvK (m ((c : Thread nD τ).loc main_arg1))) shapeCasts_S100000_S100000x1))
        (srcK (m ((c : Thread nD τ).loc main_arg1))) (dstK (m ((c : Thread nD τ).loc main_arg1)))
        (dinvK (m ((c : Thread nD τ).loc main_arg1))) (m ((c : Thread nD τ).loc main_arg3)) (m ((c : Thread nD τ).loc main_arg5)) := by
  refine (mid_v47 (W4 m ρ c)).trans ?_
  rw [W4_v16, W4_v3, W4_v6, W4_v14, W4_arg3, W4_arg5]

theorem W6_arg2 (c : Dev nD) : W6 m ρ c (Proc.devRef .tc main_arg2) = m ((c : Thread nD τ).loc main_arg2) :=
  (mid_arg2 (W4 m ρ c)).trans ((W4_of_ne m ρ c main_arg2 (by decide)).trans (pre_arg2 (W0 m ρ c)))
theorem W6_arg6 (c : Dev nD) : W6 m ρ c (Proc.devRef .tc main_arg6) = m ((c : Thread nD τ).loc main_arg6) :=
  (mid_arg6 (W4 m ρ c)).trans ((W4_of_ne m ρ c main_arg6 (by decide)).trans (pre_arg6 (W0 m ρ c)))
theorem W6_arg7 (c : Dev nD) : W6 m ρ c (Proc.devRef .tc main_arg7) = m ((c : Thread nD τ).loc main_arg7) :=
  (mid_arg7 (W4 m ρ c)).trans ((W4_of_ne m ρ c main_arg7 (by decide)).trans (pre_arg7 (W0 m ρ c)))
theorem W6_arg8 (c : Dev nD) : W6 m ρ c (Proc.devRef .tc main_arg8) = m ((c : Thread nD τ).loc main_arg8) :=
  (mid_arg8 (W4 m ρ c)).trans ((W4_of_ne m ρ c main_arg8 (by decide)).trans (pre_arg8 (W0 m ρ c)))
theorem W6_arg9 (c : Dev nD) : W6 m ρ c (Proc.devRef .tc main_arg9) = m ((c : Thread nD τ).loc main_arg9) :=
  (mid_arg9 (W4 m ρ c)).trans ((W4_of_ne m ρ c main_arg9 (by decide)).trans (pre_arg9 (W0 m ρ c)))
theorem W6_arg10 (c : Dev nD) : W6 m ρ c (Proc.devRef .tc main_arg10) = m ((c : Thread nD τ).loc main_arg10) :=
  (mid_arg10 (W4 m ρ c)).trans ((W4_of_ne m ρ c main_arg10 (by decide)).trans (pre_arg10 (W0 m ρ c)))
theorem W6_arg11 (c : Dev nD) : W6 m ρ c (Proc.devRef .tc main_arg11) = m ((c : Thread nD τ).loc main_arg11) :=
  (mid_arg11 (W4 m ρ c)).trans ((W4_of_ne m ρ c main_arg11 (by decide)).trans (pre_arg11 (W0 m ρ c)))

end Cert.KernelIdeal.Chain

end
-- ==== Proof.MlpSpec.lean ====
import Idealize.ShloMosaic.Lib.ValueIdx

/-!
# The truck-side multilayer perceptron, as closed-form sums over extended reals

Three layers on 4096 rows: a 64 → 128 affine map followed by a rectifier (`truckEmb`), a 256 → 128 affine map on
the row-wise join of that result with a second 4096 × 128 array, followed by a rectifier (`comb`), and a final
128 → 100 affine map (`out`). The 256-wide contraction is written as the sum of its two 128-wide halves: the first
half of the weight's rows meets `truckEmb`, the second half meets the joined array.
-/

noncomputable section

open scoped BigOperators

namespace Cert.Mlp

open Idealize.ShloMosaic Idealize.ShloMosaic.ValueIdx

/-- A rank-2 array of extended reals with literal extents. -/
abbrev Mat (a b : Nat) := (⟨2, ![a, b]⟩ : Shape).Idx → EReal
/-- A rank-1 array of extended reals with a literal extent. -/
abbrev Vc (n : Nat) := (⟨1, ![n]⟩ : Shape).Idx → EReal

/-- First layer: `relu (x2 @ x6 + x7)` at row `t`, column `p`. -/
def truckEmb (x2 : Mat 4096 64) (x6 : Mat 64 128) (x7 : Vc 128) (t : Fin 4096) (p : Fin 128) : EReal :=
  max ((∑ q : Fin 64, x2 (ix2 t q) * x6 (ix2 q p)) + x7 (ix1 p)) 0

/-- Second layer: `relu ([truckEmb, node] @ x8 + x9)` at row `t`, column `k`; the contraction over the 256 joined
    columns is the sum of the contraction over the first 128 and the contraction over the last 128. -/
def comb (x2 : Mat 4096 64) (x6 : Mat 64 128) (x7 : Vc 128) (node : Mat 4096 128) (x8 : Mat 256 128) (x9 : Vc 128)
    (t : Fin 4096) (k : Fin 128) : EReal :=
  max (((∑ p : Fin 128, truckEmb x2 x6 x7 t p * x8 (ix2 (Fin.castAdd 128 p) k))
        + (∑ p : Fin 128, node (ix2 t p) * x8 (ix2 (Fin.natAdd 128 p) k))) + x9 (ix1 k)) 0

/-- Third layer: `comb @ x10 + x11` at row `t`, column `j`. -/
def out (x2 : Mat 4096 64) (x6 : Mat 64 128) (x7 : Vc 128) (node : Mat 4096 128) (x8 : Mat 256 128) (x9 : Vc 128)
    (x10 : Mat 128 100) (x11 : Vc 100) (t : Fin 4096) (j : Fin 100) : EReal :=
  (∑ k : Fin 128, comb x2 x6 x7 node x8 x9 t k * x10 (ix2 k j)) + x11 (ix1 j)

end Cert.Mlp
-- ==== Proof.LibPadScatter.lean ====
/-
  ZERO-PADDING COLUMNS by a one-index `stablehlo.scatter` whose body returns the update, read at an index.

  `zeros((A, B)).at[:, :C].set(u)` with `u : [A, C]`, `C ≤ B`, lowers to a scatter with ONE scatter index (the
  literal column start 0): update_window_dims `[0, 1]`, no inserted window axes, scatter_dims_to_operand_dims `[1]`,
  index_vector_dim 0. Update element `(a, c)` lands on operand element `(a, c)`; distinct update elements land on
  distinct operand elements, so whatever the order of the updates, operand element `(a, c)` with `c < C` ends as
  `u (a, c)`.
-/
import Idealize.ShloMosaic.Lib.ValueIdx

noncomputable section

open Idealize.ShloMosaic Idealize.ShloMosaic.ValueIdx

namespace Cert.Lib.PadScatter

variable {α : Type}

/-! ## A scatter whose body returns the update: the fold over any list of update positions -/

section Fold
variable {s si u : Shape} {w : Nat} (d : ScatterDims s si u) (idx : IVec si w) (upd : u.Idx → α)

/-- One step of the scatter's fold with the body "return the update": the element the update at row-major position
    `n` lands on is overwritten by it; an update landing outside the operand is dropped. -/
abbrev setStep (r : s.Idx → α) (n : Fin u.numel) : s.Idx → α :=
  match d.resultIdx? (u.rowMajor.symm n) idx with
  | some i => fun i' => if i' = i then (fun _ b => b) (r i) (upd (u.rowMajor.symm n)) else r i'
  | none => r

/-- A step whose update lands on `i` writes the update's element there. -/
theorem setStep_of_eq (r : s.Idx → α) (n : Fin u.numel) (i : s.Idx)
    (h : d.resultIdx? (u.rowMajor.symm n) idx = some i) : setStep d idx upd r n i = upd (u.rowMajor.symm n) := by
  unfold setStep
  revert h
  generalize d.resultIdx? (u.rowMajor.symm n) idx = o
  intro h
  cases o with
  | none => exact absurd h (by simp)
  | some i₀ => exact if_pos (Option.some.inj h).symm

/-- A step whose update does not land on `i` leaves element `i` unchanged. -/
theorem setStep_of_ne (r : s.Idx → α) (n : Fin u.numel) (i : s.Idx)
    (h : d.resultIdx? (u.rowMajor.symm n) idx ≠ some i) : setStep d idx upd r n i = r i := by
  unfold setStep
  revert h
  generalize d.resultIdx? (u.rowMajor.symm n) idx = o
  intro h
  cases o with
  | none => rfl
  | some i₀ => exact if_neg (fun e => h (by rw [e]))

/-- If no update position in the list lands on `i`, the fold leaves element `i` unchanged. -/
theorem foldl_setStep_of_not_mem (i : s.Idx) (L : List (Fin u.numel)) :
    ∀ x : s.Idx → α, (∀ n ∈ L, d.resultIdx? (u.rowMajor.symm n) idx ≠ some i) →
      (L.foldl (setStep d idx upd) x) i = x i := by
  induction L with
  | nil => intro x _; rfl
  | cons n L ih =>
    intro x h
    rw [List.foldl_cons, ih _ (fun m hm => h m (List.mem_cons_of_mem _ hm))]
    exact setStep_of_ne d idx upd x n i (h n List.mem_cons_self)

/-- If some update position in the list lands on `i`, and every one that does carries the same value `v`, the
    fold's element `i` is `v`. -/
theorem foldl_setStep_of_mem (i : s.Idx) (v : α) (L : List (Fin u.numel)) :
    ∀ x : s.Idx → α, (∃ n ∈ L, d.resultIdx? (u.rowMajor.symm n) idx = some i) →
      (∀ n ∈ L, d.resultIdx? (u.rowMajor.symm n) idx = some i → upd (u.rowMajor.symm n) = v) →
      (L.foldl (setStep d idx upd) x) i = v := by
  induction L with
  | nil => intro x h; obtain ⟨n, hn, _⟩ := h; exact absurd hn List.not_mem_nil
  | cons n L ih =>
    intro x hex hval
    rw [List.foldl_cons]
    by_cases hL : ∃ m ∈ L, d.resultIdx? (u.rowMajor.symm m) idx = some i
    · exact ih _ hL (fun m hm => hval m (List.mem_cons_of_mem _ hm))
    · rw [foldl_setStep_of_not_mem d idx upd i L _ (fun m hm e => hL ⟨m, hm, e⟩)]
      obtain ⟨m, hm, hmi⟩ := hex
      have hmn : m = n := by
        rcases List.mem_cons.mp hm with e | hm'
        · exact e
        · exact absurd ⟨m, hm', hmi⟩ hL
      subst hmn
      rw [setStep_of_eq d idx upd x m i hmi]
      exact hval m List.mem_cons_self hmi

end Fold

/-! ## The column-padding scatter -/

/-- The second axis is not the first. -/
private theorem one_ne_zero2 : ¬ ((1 : Fin 2) = 0) := by decide
/-- The first axis is not the second. -/
private theorem zero_ne_one2 : ¬ ((0 : Fin 2) = 1) := by decide

/-- The dimension numbers of the padding scatter: operand `[A, B]`, ONE scatter index (a column start), updates
    `[A, C]`; the conditions `wf` are decided on a program's literal shapes. -/
abbrev padScatterDims (A B C : Nat) (wf : ScatterDims.WF ⟨2, ![A, B]⟩ ⟨1, ![1]⟩ ⟨2, ![A, C]⟩ [0, 1] [] [1] 0) :
    ScatterDims ⟨2, ![A, B]⟩ ⟨1, ![1]⟩ ⟨2, ![A, C]⟩ where
  updateWindowDims := [0, 1]
  insertedWindowDims := []
  scatterDimsToOperandDims := [1]
  indexVectorDim := 0
  wf := wf

section Coordinates
variable {A B C w : Nat} (wf : ScatterDims.WF ⟨2, ![A, B]⟩ ⟨1, ![1]⟩ ⟨2, ![A, C]⟩ [0, 1] [] [1] 0)
  (idx : IVec ⟨1, ![1]⟩ w) (j : (⟨2, ![A, C]⟩ : Shape).Idx)

/-- On the row axis the window starts at 0. -/
theorem pad_start_row : (padScatterDims A B C wf).start j idx (0 : Fin 2) = 0 := by
  unfold ScatterDims.start
  rw [dif_neg (show (0 : Fin 2) ∉ (padScatterDims A B C wf).scatterDimsToOperandDims from
    fun h => absurd (List.mem_singleton.mp h) zero_ne_one2)]

/-- On the column axis the window starts at the one scatter index, read signed. -/
theorem pad_start_col : (padScatterDims A B C wf).start j idx (1 : Fin 2) = (idx (ix1 (0 : Fin 1))).toInt := by
  unfold ScatterDims.start
  rw [dif_pos (show (1 : Fin 2) ∈ (padScatterDims A B C wf).scatterDimsToOperandDims from List.mem_singleton.mpr rfl)]
  have hsi : (padScatterDims A B C wf).siIdx j ⟨List.idxOf (1 : Fin 2) (padScatterDims A B C wf).scatterDimsToOperandDims,
      List.idxOf_lt_length_iff.2 (List.mem_singleton.mpr rfl)⟩ = ix1 (0 : Fin 1) := by
    funext b; refine Fin.ext ?_
    match b with
    | ⟨0, _⟩ => rfl
  rw [hsi]

/-- The row axis's window coordinate is the update's row. -/
theorem pad_window_row : (padScatterDims A B C wf).window j (0 : Fin 2) = (j 0).val := by
  unfold ScatterDims.window
  rw [dif_pos (show (0 : Fin 2) ∈ (padScatterDims A B C wf).sKept from by
    simp [ScatterDims.sKept, Shape.kept, List.mem_filter, List.mem_finRange])]
  rfl

/-- The column axis's window coordinate is the update's column. -/
theorem pad_window_col : (padScatterDims A B C wf).window j (1 : Fin 2) = (j 1).val := by
  unfold ScatterDims.window
  rw [dif_pos (show (1 : Fin 2) ∈ (padScatterDims A B C wf).sKept from by
    simp [ScatterDims.sKept, Shape.kept, List.mem_filter, List.mem_finRange])]
  rfl

/-- With the column start 0, update element `(a, c)` lands on operand element `(a, c)`. -/
theorem padScatter_resultIdx (hCB : C ≤ B) (hidx : (idx (ix1 (0 : Fin 1))).toInt = 0) :
    (padScatterDims A B C wf).resultIdx? j idx
      = some (ix2 (j 0) (⟨(j 1).val, by have := idx2_lt1 j; omega⟩ : Fin B)) := by
  have hj0 : (j 0).val < A := idx2_lt0 j
  have hj1 : (j 1).val < C := idx2_lt1 j
  have hc : ∀ a : Fin 2, 0 ≤ (padScatterDims A B C wf).start j idx a + ((padScatterDims A B C wf).window j a : Int)
      ∧ (padScatterDims A B C wf).start j idx a + ((padScatterDims A B C wf).window j a : Int)
        < ((⟨2, ![A, B]⟩ : Shape).size a : Int) := by
    intro a
    match a with
    | ⟨0, _⟩ =>
      show 0 ≤ (padScatterDims A B C wf).start j idx (0 : Fin 2) + ((padScatterDims A B C wf).window j (0 : Fin 2) : Int)
        ∧ (padScatterDims A B C wf).start j idx (0 : Fin 2) + ((padScatterDims A B C wf).window j (0 : Fin 2) : Int) < (A : Int)
      rw [pad_start_row, pad_window_row]; omega
    | ⟨1, _⟩ =>
      show 0 ≤ (padScatterDims A B C wf).start j idx (1 : Fin 2) + ((padScatterDims A B C wf).window j (1 : Fin 2) : Int)
        ∧ (padScatterDims A B C wf).start j idx (1 : Fin 2) + ((padScatterDims A B C wf).window j (1 : Fin 2) : Int) < (B : Int)
      rw [pad_start_col, pad_window_col, hidx]; omega
  unfold ScatterDims.resultIdx?
  rw [dif_pos hc]
  congr 1
  funext a
  refine Fin.ext ?_
  match a with
  | ⟨0, _⟩ =>
    show ((padScatterDims A B C wf).start j idx (0 : Fin 2)
      + ((padScatterDims A B C wf).window j (0 : Fin 2) : Int)).toNat = (j 0).val
    rw [pad_start_row, pad_window_row]; omega
  | ⟨1, _⟩ =>
    show ((padScatterDims A B C wf).start j idx (1 : Fin 2)
      + ((padScatterDims A B C wf).window j (1 : Fin 2) : Int)).toNat = (j 1).val
    rw [pad_start_col, pad_window_col, hidx]; omega

end Coordinates

/-- THE PADDING SCATTER READ AT `(a, c)`, `c < C`: the update's element `(a, c)`. -/
theorem padScatter_apply {A B C w : Nat} (hCB : C ≤ B)
    (wf : ScatterDims.WF ⟨2, ![A, B]⟩ ⟨1, ![1]⟩ ⟨2, ![A, C]⟩ [0, 1] [] [1] 0)
    (x : (⟨2, ![A, B]⟩ : Shape).Idx → α) (idx : IVec ⟨1, ![1]⟩ w) (hidx : (idx (ix1 (0 : Fin 1))).toInt = 0)
    (upd : (⟨2, ![A, C]⟩ : Shape).Idx → α) (a : Fin A) (c : Fin C) :
    Host.scatter (padScatterDims A B C wf) (fun _ b => b) x idx upd (ix2 a (⟨c.val, by omega⟩ : Fin B))
      = upd (ix2 a c) := by
  show ((List.finRange (⟨2, ![A, C]⟩ : Shape).numel).foldl (setStep (padScatterDims A B C wf) idx upd) x) _ = _
  refine foldl_setStep_of_mem _ idx upd _ _ _ x
    ⟨(⟨2, ![A, C]⟩ : Shape).rowMajor (ix2 a c), List.mem_finRange _, ?_⟩ ?_
  · rw [Equiv.symm_apply_apply, padScatter_resultIdx wf idx _ hCB hidx]
    rfl
  · intro n _ hn
    rw [padScatter_resultIdx wf idx _ hCB hidx] at hn
    have he := Option.some.inj hn
    have e0 : ((⟨2, ![A, C]⟩ : Shape).rowMajor.symm n) 0 = a := congrFun he (0 : Fin 2)
    have e1 : (((⟨2, ![A, C]⟩ : Shape).rowMajor.symm n) 1).val = c.val := by
      have := congrArg Fin.val (congrFun he (1 : Fin 2))
      exact this
    rw [eq_ix2 ((⟨2, ![A, C]⟩ : Shape).rowMajor.symm n), e0, Fin.ext e1]
    rfl

/-- THE PADDING SCATTER READ AT A PADDED COLUMN `b ≥ C`: no update lands there, the operand's element is kept. -/
theorem padScatter_apply_of_ge {A B C w : Nat} (hCB : C ≤ B)
    (wf : ScatterDims.WF ⟨2, ![A, B]⟩ ⟨1, ![1]⟩ ⟨2, ![A, C]⟩ [0, 1] [] [1] 0)
    (x : (⟨2, ![A, B]⟩ : Shape).Idx → α) (idx : IVec ⟨1, ![1]⟩ w) (hidx : (idx (ix1 (0 : Fin 1))).toInt = 0)
    (upd : (⟨2, ![A, C]⟩ : Shape).Idx → α) (a : Fin A) (b : Fin B) (hb : C ≤ b.val) :
    Host.scatter (padScatterDims A B C wf) (fun _ b => b) x idx upd (ix2 a b) = x (ix2 a b) := by
  show ((List.finRange (⟨2, ![A, C]⟩ : Shape).numel).foldl (setStep (padScatterDims A B C wf) idx upd) x) _ = _
  refine foldl_setStep_of_not_mem _ idx upd _ _ x (fun n _ hn => ?_)
  rw [padScatter_resultIdx wf idx _ hCB hidx] at hn
  have he := Option.some.inj hn
  have e1 : (((⟨2, ![A, C]⟩ : Shape).rowMajor.symm n) 1).val = b.val := by
    have := congrArg Fin.val (congrFun he (1 : Fin 2))
    exact this
  have hlt := idx2_lt1 ((⟨2, ![A, C]⟩ : Shape).rowMajor.symm n)
  omega

end Cert.Lib.PadScatter

end
-- ==== Proof.MlpKernel.lean ====
import proofs.«168464_j38783554683458_2_alg».proof.Proof.Gen.KernelIdeal.Frame
import proofs.«168464_j38783554683458_2_alg».proof.Proof.MlpSpec
import proofs.«168464_j38783554683458_2_alg».proof.Proof.LibPadScatter
import Idealize.ShloMosaic.Lib.Pipeline.Value
import Idealize.ShloMosaic.Lib.ValueIdx
import Idealize.ShloMosaic.Lib.ValueLayout
import Idealize.ShloMosaic.PureOps.Ideal.Laws

/-!
# The fused three-layer kernel body, read at an index

The body's output block, as a function of its nine input blocks, is three matrix products into zero accumulators with
a bias row added after each and a rectifier after the first two; the second layer's product over the 256 joined
columns arrives already split into its two 128-wide halves. Wrapped in the host operations that cut the second
weight in two, add the unit axis to the biases, pad the last weight and bias from 100 to 128 columns and cut the
result back to 100 columns, its value at row `t`, column `j` is `Cert.Mlp.out`.
-/

noncomputable section

open scoped BigOperators

namespace Cert.KernelIdeal.Mlp

open Cert.KernelIdeal Cert.KernelIdeal.Gen Idealize.ShloMosaic Idealize.ShloMosaic.ValueIdx

/-- The zero offsets, as the constant function. -/
theorem hz : (![0, 0] : Fin 2 → Nat) = fun _ => 0 := funext fun a => by fin_cases a <;> rfl

/-! ## A matrix product into a zero accumulator, at coordinates -/

theorem lhs64_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem rhs64_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- The 4096 × 64 by 64 × 128 product at `(t, p)` is the sum over the 64 contracted positions. -/
theorem matmul64_apply {φ₁ φ₂ : FTy} (a : FVec Ideal S4096x64 φ₁) (b : FVec Ideal S64x128 φ₂) (t : Fin 4096) (p : Fin 128) :
    matmul dot_S4096x64_S64x128_S4096x128_1_0_0_1_n_n none a b (constant (F := Ideal) S4096x128 .f32 0x00000000#32) (ix2 t p)
      = ∑ q : Fin 64, a (ix2 t q) * b (ix2 q p) := by
  simp only [matmul]
  rw [Ideal.matmul_constant_zero_apply, ← Equiv.sum_comp (contrEquiv1 dot_S4096x64_S64x128_S4096x128_1_0_0_1_n_n 64 rfl rfl).symm]
  refine Finset.sum_congr rfl fun q _ => ?_
  have hq := contrEquiv1_symm_val dot_S4096x64_S64x128_S4096x128_1_0_0_1_n_n 64 rfl rfl q
  have el : dot_S4096x64_S64x128_S4096x128_1_0_0_1_n_n.lhsIdx (ix2 t p) ((contrEquiv1 dot_S4096x64_S64x128_S4096x128_1_0_0_1_n_n 64 rfl rfl).symm q) = ix2 t q := funext fun ax => Fin.ext (by
    match ax with
    | ⟨0, _⟩ => exact lhs64_0 _ _
    | ⟨1, _⟩ => exact (dot_S4096x64_S64x128_S4096x128_1_0_0_1_n_n.lhsIdx_val_of_single rfl _ _).trans hq)
  have er : dot_S4096x64_S64x128_S4096x128_1_0_0_1_n_n.rhsIdx (ix2 t p) ((contrEquiv1 dot_S4096x64_S64x128_S4096x128_1_0_0_1_n_n 64 rfl rfl).symm q) = ix2 q p := funext fun ax => Fin.ext (by
    match ax with
    | ⟨0, _⟩ => exact (dot_S4096x64_S64x128_S4096x128_1_0_0_1_n_n.rhsIdx_val_of_single rfl _ _).trans hq
    | ⟨1, _⟩ => exact rhs64_1 _ _)
  rw [el, er]

theorem lhs128_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem rhs128_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The 4096 × 128 by 128 × 128 product at `(t, k)` is the sum over the 128 contracted positions. -/
theorem matmul128_apply {φ₁ φ₂ : FTy} (a : FVec Ideal S4096x128 φ₁) (b : FVec Ideal S128x128 φ₂) (t : Fin 4096) (k : Fin 128) :
    matmul dot_S4096x128_S128x128_S4096x128_1_0_0_1_n_n none a b (constant (F := Ideal) S4096x128 .f32 0x00000000#32) (ix2 t k)
      = ∑ p : Fin 128, a (ix2 t p) * b (ix2 p k) := by
  simp only [matmul]
  rw [Ideal.matmul_constant_zero_apply, ← Equiv.sum_comp (contrEquiv1 dot_S4096x128_S128x128_S4096x128_1_0_0_1_n_n 128 rfl rfl).symm]
  refine Finset.sum_congr rfl fun q _ => ?_
  have hq := contrEquiv1_symm_val dot_S4096x128_S128x128_S4096x128_1_0_0_1_n_n 128 rfl rfl q
  have el : dot_S4096x128_S128x128_S4096x128_1_0_0_1_n_n.lhsIdx (ix2 t k) ((contrEquiv1 dot_S4096x128_S128x128_S4096x128_1_0_0_1_n_n 128 rfl rfl).symm q) = ix2 t q := funext fun ax => Fin.ext (by
    match ax with
    | ⟨0, _⟩ => exact lhs128_0 _ _
    | ⟨1, _⟩ => exact (dot_S4096x128_S128x128_S4096x128_1_0_0_1_n_n.lhsIdx_val_of_single rfl _ _).trans hq)
  have er : dot_S4096x128_S128x128_S4096x128_1_0_0_1_n_n.rhsIdx (ix2 t k) ((contrEquiv1 dot_S4096x128_S128x128_S4096x128_1_0_0_1_n_n 128 rfl rfl).symm q) = ix2 q k := funext fun ax => Fin.ext (by
    match ax with
    | ⟨0, _⟩ => exact (dot_S4096x128_S128x128_S4096x128_1_0_0_1_n_n.rhsIdx_val_of_single rfl _ _).trans hq
    | ⟨1, _⟩ => exact rhs128_1 _ _)
  rw [el, er]

/-! ## A bias row added to every row, then the rectifier, at coordinates -/

/-- The bias row, carried through the same-shape cast and broadcast over the 4096 rows, reads its column. -/
theorem biasRow_apply (b : Vec Ideal S1x128 .f32) (t : Fin 4096) (p : Fin 128) :
    broadcastTo S4096x128 (shapeCast S1x128 b shapeCasts_S1x128_S1x128) broadcasts_S1x128_S4096x128 (ix2 t p)
      = b (ix2 (0 : Fin 1) p) := by
  rw [shapeCast_self]
  exact broadcastTo_1b_ab_apply b broadcasts_S1x128_S4096x128 t p

/-- Bias then rectifier. -/
theorem affineRelu_apply (m : FVec Ideal S4096x128 .f32) (b : Vec Ideal S1x128 .f32) (t : Fin 4096) (p : Fin 128) :
    maximumf (addf m (broadcastTo S4096x128 (shapeCast S1x128 b shapeCasts_S1x128_S1x128) broadcasts_S1x128_S4096x128))
        (broadcast S4096x128 (Scalar.ofBits (F := Ideal) .f32 0x00000000#32)) (ix2 t p)
      = max (m (ix2 t p) + b (ix2 (0 : Fin 1) p)) 0 := by
  rw [maximumf_apply, addf_apply, biasRow_apply, broadcast_apply]
  show max _ (Ideal.ofBits .f32 0x00000000#32) = _
  rw [Ideal.ofBits_zero_f32]

/-! ## The body's payloads as three layers -/

/-- First layer of the body: product, bias row, rectifier. -/
def layer1 (v0 : Vec Ideal S4096x64 .f32) (v2 : Vec Ideal S64x128 .f32) (v5 : Vec Ideal S1x128 .f32) : FVec Ideal S4096x128 .f32 :=
  maximumf (addf (matmul dot_S4096x64_S64x128_S4096x128_1_0_0_1_n_n none (truncf .bf16 v0 bitsLt_bf16_f32) (truncf .bf16 v2 bitsLt_bf16_f32) (constant S4096x128 .f32 0x00000000#32))
      (broadcastTo S4096x128 (shapeCast S1x128 v5 shapeCasts_S1x128_S1x128) broadcasts_S1x128_S4096x128))
    (broadcast S4096x128 (Scalar.ofBits (F := Ideal) .f32 0x00000000#32))

/-- Second layer of the body: the sum of two products, bias row, rectifier. -/
def layer2 (e : FVec Ideal S4096x128 .f32) (v11 : Vec Ideal S4096x128 .f32) (v14 v19 : Vec Ideal S128x128 .f32) (v24 : Vec Ideal S1x128 .f32) : FVec Ideal S4096x128 .f32 :=
  maximumf (addf (addf
        (matmul dot_S4096x128_S128x128_S4096x128_1_0_0_1_n_n none (truncf .bf16 e bitsLt_bf16_f32) (truncf .bf16 (shapeCast S128x128 v14 shapeCasts_S128x128_S128x128) bitsLt_bf16_f32) (constant S4096x128 .f32 0x00000000#32))
        (matmul dot_S4096x128_S128x128_S4096x128_1_0_0_1_n_n none (truncf .bf16 (shapeCast S4096x128 v11 shapeCasts_S4096x128_S4096x128) bitsLt_bf16_f32) (truncf .bf16 (shapeCast S128x128 v19 shapeCasts_S128x128_S128x128) bitsLt_bf16_f32) (constant S4096x128 .f32 0x00000000#32)))
      (broadcastTo S4096x128 (shapeCast S1x128 v24 shapeCasts_S1x128_S1x128) broadcasts_S1x128_S4096x128))
    (broadcast S4096x128 (Scalar.ofBits (F := Ideal) .f32 0x00000000#32))

/-- The body's last product is the third product applied to the two layers. -/
theorem pay2_eq (v0 : Vec Ideal S4096x64 .f32) (v2 : Vec Ideal S64x128 .f32) (v5 : Vec Ideal S1x128 .f32)
    (v11 : Vec Ideal S4096x128 .f32) (v14 v19 : Vec Ideal S128x128 .f32) (v24 : Vec Ideal S1x128 .f32) (v31 : Vec Ideal S128x128 .f32) :
    k1_pay2 (F := Ideal) v0 v2 v5 v11 v14 v19 v24 v31
      = matmul dot_S4096x128_S128x128_S4096x128_1_0_0_1_n_n none (truncf .bf16 (layer2 (layer1 v0 v2 v5) v11 v14 v19 v24) bitsLt_bf16_f32)
          (truncf .bf16 (shapeCast S128x128 v31 shapeCasts_S128x128_S128x128) bitsLt_bf16_f32) (constant S4096x128 .f32 0x00000000#32) := rfl

theorem layer1_apply (v0 : Vec Ideal S4096x64 .f32) (v2 : Vec Ideal S64x128 .f32) (v5 : Vec Ideal S1x128 .f32) (t : Fin 4096) (p : Fin 128) :
    layer1 v0 v2 v5 (ix2 t p) = max ((∑ q : Fin 64, v0 (ix2 t q) * v2 (ix2 q p)) + v5 (ix2 (0 : Fin 1) p)) 0 := by
  unfold layer1
  rw [affineRelu_apply, matmul64_apply]
  rfl

theorem layer2_apply (e : FVec Ideal S4096x128 .f32) (v11 : Vec Ideal S4096x128 .f32) (v14 v19 : Vec Ideal S128x128 .f32) (v24 : Vec Ideal S1x128 .f32)
    (t : Fin 4096) (k : Fin 128) :
    layer2 e v11 v14 v19 v24 (ix2 t k)
      = max (((∑ p : Fin 128, e (ix2 t p) * v14 (ix2 p k)) + (∑ p : Fin 128, v11 (ix2 t p) * v19 (ix2 p k))) + v24 (ix2 (0 : Fin 1) k)) 0 := by
  unfold layer2
  rw [shapeCast_self v14, shapeCast_self v11, shapeCast_self v19, affineRelu_apply, addf_apply, matmul128_apply, matmul128_apply]
  rfl

/-- The body's stored value at `(t, j)`, from the nine blocks it reads. -/
theorem body_apply (x0 : Vec Ideal S4096x64 .f32) (x1 : Vec Ideal S64x128 .f32) (x2 : Vec Ideal S1x128 .f32) (x3 : Vec Ideal S4096x128 .f32)
    (x4 x5 : Vec Ideal S128x128 .f32) (x6 : Vec Ideal S1x128 .f32) (x7 : Vec Ideal S128x128 .f32) (x8 : Vec Ideal S1x128 .f32)
    (t : Fin 4096) (j : Fin 128) :
    out1_9 (F := Ideal) x0 x1 x2 x3 x4 x5 x6 x7 x8 (ix2 t j)
      = (∑ k : Fin 128, max (((∑ p : Fin 128, max ((∑ q : Fin 64, x0 (ix2 t q) * x1 (ix2 q p)) + x2 (ix2 (0 : Fin 1) p)) 0 * x4 (ix2 p k))
            + (∑ p : Fin 128, x3 (ix2 t p) * x5 (ix2 p k))) + x6 (ix2 (0 : Fin 1) k)) 0 * x7 (ix2 k j))
        + x8 (ix2 (0 : Fin 1) j) := by
  unfold out1_9
  rw [View.canon_unit_zero hz]
  simp only [View.ld_unit_zero (S := S4096x64) hz, View.ld_unit_zero (S := S64x128) hz, View.ld_unit_zero (S := S1x128) hz,
    View.ld_unit_zero (S := S4096x128) hz, View.ld_unit_zero (S := S128x128) hz]
  show addf (k1_pay2 (F := Ideal) x0 x1 x2 x3 x4 x5 x6 x7)
    (broadcastTo S4096x128 (shapeCast S1x128 x8 shapeCasts_S1x128_S1x128) broadcasts_S1x128_S4096x128) (ix2 t j) = _
  rw [addf_apply, biasRow_apply, pay2_eq, matmul128_apply]
  simp only [truncf_apply, shapeCast_self, layer2_apply, layer1_apply]

/-! ## The host operations around the body -/

/-- The kernel's tail with the two padded arrays as parameters: the second weight cut in two, the unit axis added to
    the two hidden biases, the body, and the result cut back to 100 columns. -/
def kernelTailP (x2 : FVec Ideal S4096x64 .f32) (x6 : FVec Ideal S64x128 .f32) (x7 : FVec Ideal S128 .f32) (node : FVec Ideal S4096x128 .f32)
    (x8 : FVec Ideal S256x128 .f32) (x9 : FVec Ideal S128 .f32) (wOutP : FVec Ideal S128x128 .f32) (bOutP : FVec Ideal S1x128 .f32) :
    FVec Ideal S4096x100 .f32 :=
  extractStridedSlice S4096x100 ![0, 0] (out1_9 (F := Ideal) x2 x6 (shapeCast S1x128 x7 shapeCasts_S128_S1x128) node
    (extractStridedSlice S128x128 ![0, 0] x8 slices_S256x128_S128x128_0_0) (extractStridedSlice S128x128 ![128, 0] x8 slices_S256x128_S128x128_128_0)
    (shapeCast S1x128 x9 shapeCasts_S128_S1x128) wOutP bOutP) slices_S4096x128_S4096x100_0_0

/-- With padded arrays that agree with the last weight and bias on the first 100 columns, the tail at `(t, j)` is the
    closed form. -/
theorem kernelTailP_apply (x2 : FVec Ideal S4096x64 .f32) (x6 : FVec Ideal S64x128 .f32) (x7 : FVec Ideal S128 .f32) (node : FVec Ideal S4096x128 .f32)
    (x8 : FVec Ideal S256x128 .f32) (x9 : FVec Ideal S128 .f32) (x10 : FVec Ideal S128x100 .f32) (x11 : FVec Ideal S100 .f32)
    (wOutP : FVec Ideal S128x128 .f32) (bOutP : FVec Ideal S1x128 .f32)
    (hw : ∀ (k : Fin 128) (j : Fin 100), wOutP (ix2 k (⟨j.val, Nat.lt_of_lt_of_le j.isLt (by decide)⟩ : Fin 128)) = x10 (ix2 k j))
    (hb : ∀ j : Fin 100, bOutP (ix2 (0 : Fin 1) (⟨j.val, Nat.lt_of_lt_of_le j.isLt (by decide)⟩ : Fin 128)) = x11 (ix1 j))
    (t : Fin 4096) (j : Fin 100) :
    kernelTailP x2 x6 x7 node x8 x9 wOutP bOutP (ix2 t j) = Cert.Mlp.out x2 x6 x7 node x8 x9 x10 x11 t j := by
  unfold kernelTailP
  refine (slice2_axis1_apply 0 _ slices_S4096x128_S4096x100_0_0 t j (⟨j.val, Nat.lt_of_lt_of_le j.isLt (by decide)⟩ : Fin 128)
    (Nat.zero_add _).symm).trans ?_
  rw [body_apply, hb j]
  unfold Cert.Mlp.out Cert.Mlp.comb Cert.Mlp.truckEmb
  refine congrArg (· + x11 (ix1 j)) (Finset.sum_congr rfl fun k _ => ?_)
  rw [hw k j, shapeCast_a_1a_apply x9 shapeCasts_S128_S1x128 0 k]
  refine congrArg (fun z => max (z + x9 (ix1 k)) 0 * x10 (ix2 k j)) ?_
  refine congrArg₂ (· + ·) (Finset.sum_congr rfl fun p _ => ?_) (Finset.sum_congr rfl fun p _ => ?_)
  · rw [shapeCast_a_1a_apply x7 shapeCasts_S128_S1x128 0 p,
      slice2_axis0_apply 0 x8 slices_S256x128_S128x128_0_0 p k (Fin.castAdd 128 p) (Nat.zero_add _).symm]
  · rw [slice2_axis0_apply 128 x8 slices_S256x128_S128x128_128_0 p k (Fin.natAdd 128 p) rfl]

/-! ## The tail with the padding scatters in place -/

/-- The host operations around the body, as the program spells them: the last weight and bias are written into
    128-column zero arrays by a scatter at column 0. -/
def kernelTail (x2 : FVec Ideal S4096x64 .f32) (x6 : FVec Ideal S64x128 .f32) (x7 : FVec Ideal S128 .f32) (node : FVec Ideal S4096x128 .f32)
    (x8 : FVec Ideal S256x128 .f32) (x9 : FVec Ideal S128 .f32) (x10 : FVec Ideal S128x100 .f32) (x11 : FVec Ideal S100 .f32) :
    FVec Ideal S4096x100 .f32 :=
  extractStridedSlice S4096x100 ![0, 0] (out1_9 (F := Ideal) x2 x6 (shapeCast S1x128 x7 shapeCasts_S128_S1x128) node (extractStridedSlice S128x128 ![0, 0] x8 slices_S256x128_S128x128_0_0) (extractStridedSlice S128x128 ![128, 0] x8 slices_S256x128_S128x128_128_0) (shapeCast S1x128 x9 shapeCasts_S128_S1x128) (Host.scatter scatter_S128x128_S1_S128x100_01_n_1_0 (fun _ b => b) (broadcastInDim S128x128 ![] bcast_S_S128x128 (constant (F := Ideal) S_ .f32 0x00000000#32)) (broadcastInDim S1 ![] bcast_S_S1 (constantI S_ 32 0#32)) x10) (Host.scatter scatter_S1x128_S1_S1x100_01_n_1_0 (fun _ b => b) (broadcastInDim S1x128 ![] bcast_S_S1x128 (constant (F := Ideal) S_ .f32 0x00000000#32)) (broadcastInDim S1 ![] bcast_S_S1 (constantI S_ 32 0#32)) (shapeCast S1x100 x11 shapeCasts_S100_S1x100))) slices_S4096x128_S4096x100_0_0

/-- The scatters' one index, the broadcast integer zero, is zero. -/
theorem padIdx_zero : ((broadcastInDim S1 ![] bcast_S_S1 (constantI S_ 32 0#32) : IVec S1 32) (ix1 (0 : Fin 1))).toInt = 0 := by
  rw [broadcastInDim_apply _ bcast_S_S1 (constantI S_ 32 0#32) (ix1 (0 : Fin 1)) ix0 (fun a => a.elim0)]
  rfl

/-- THE KERNEL'S TAIL AT `(t, j)` is the closed form. -/
theorem kernelTail_apply (x2 : FVec Ideal S4096x64 .f32) (x6 : FVec Ideal S64x128 .f32) (x7 : FVec Ideal S128 .f32) (node : FVec Ideal S4096x128 .f32)
    (x8 : FVec Ideal S256x128 .f32) (x9 : FVec Ideal S128 .f32) (x10 : FVec Ideal S128x100 .f32) (x11 : FVec Ideal S100 .f32)
    (t : Fin 4096) (j : Fin 100) :
    kernelTail x2 x6 x7 node x8 x9 x10 x11 (ix2 t j) = Cert.Mlp.out x2 x6 x7 node x8 x9 x10 x11 t j := by
  unfold kernelTail
  refine kernelTailP_apply x2 x6 x7 node x8 x9 x10 x11 _ _ (fun k j => ?_) (fun j => ?_) t j
  · exact Cert.Lib.PadScatter.padScatter_apply (A := 128) (B := 128) (C := 100) (by decide)
      scatter_S128x128_S1_S128x100_01_n_1_0_wf _ _ padIdx_zero x10 k j
  · refine (Cert.Lib.PadScatter.padScatter_apply (A := 1) (B := 128) (C := 100) (by decide)
      scatter_S1x128_S1_S1x100_01_n_1_0_wf _ _ padIdx_zero (shapeCast S1x100 x11 shapeCasts_S100_S1x100) 0 j).trans ?_
    exact shapeCast_a_1a_apply x11 shapeCasts_S100_S1x100 0 j

end Cert.KernelIdeal.Mlp
-- ==== Proof.Region1Array.lean ====
/-
  From the block to the array, for the pipeline of ONE grid point whose every window is its whole array: the block each
  input window stages is the array itself, the output window's block is the whole output, so after the one point the
  output array holds the body's result on the nine arrays the pipeline reads.
-/
import proofs.«168464_j38783554683458_2_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed block-index maps over the grid: every window stays at block (0, 0). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Window 0's block at the one point is its whole array. -/
theorem iblk_0 (c : Dev nD) (t : Fin cfg1.N) : iblk1 V c 0 t = V c main_arg2 := by
  obtain ⟨e00, e01, e10, e11, e20, e21, e30, e31, e40, e41, e50, e51, e60, e61, e70, e71, e80, e81, e90, e91⟩ := idx_facts t
  funext y
  show V c main_arg2 (((cfg1.win 0).blk t).view.emb y) = V c main_arg2 y
  refine congrArg (V c main_arg2) (funext fun a => Fin.ext ?_)
  match a with
  | ⟨0, _⟩ => show win1_0.index t (0 : Fin 2) * 4096 + 1 * (y 0).val = (y 0).val; omega
  | ⟨1, _⟩ => show win1_0.index t (1 : Fin 2) * 64 + 1 * (y 1).val = (y 1).val; omega

/-- Window 1's block at the one point is its whole array. -/
theorem iblk_1 (c : Dev nD) (t : Fin cfg1.N) : iblk1 V c 1 t = V c main_arg6 := by
  obtain ⟨e00, e01, e10, e11, e20, e21, e30, e31, e40, e41, e50, e51, e60, e61, e70, e71, e80, e81, e90, e91⟩ := idx_facts t
  funext y
  show V c main_arg6 (((cfg1.win 1).blk t).view.emb y) = V c main_arg6 y
  refine congrArg (V c main_arg6) (funext fun a => Fin.ext ?_)
  match a with
  | ⟨0, _⟩ => show win1_1.index t (0 : Fin 2) * 64 + 1 * (y 0).val = (y 0).val; omega
  | ⟨1, _⟩ => show win1_1.index t (1 : Fin 2) * 128 + 1 * (y 1).val = (y 1).val; omega

/-- Window 2's block at the one point is its whole array. -/
theorem iblk_2 (c : Dev nD) (t : Fin cfg1.N) : iblk1 V c 2 t = V c main_v50 := by
  obtain ⟨e00, e01, e10, e11, e20, e21, e30, e31, e40, e41, e50, e51, e60, e61, e70, e71, e80, e81, e90, e91⟩ := idx_facts t
  funext y
  show V c main_v50 (((cfg1.win 2).blk t).view.emb y) = V c main_v50 y
  refine congrArg (V c main_v50) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 3's block at the one point is its whole array. -/
theorem iblk_3 (c : Dev nD) (t : Fin cfg1.N) : iblk1 V c 3 t = V c main_v47 := by
  obtain ⟨e00, e01, e10, e11, e20, e21, e30, e31, e40, e41, e50, e51, e60, e61, e70, e71, e80, e81, e90, e91⟩ := idx_facts t
  funext y
  show V c main_v47 (((cfg1.win 3).blk t).view.emb y) = V c main_v47 y
  refine congrArg (V c main_v47) (funext fun a => Fin.ext ?_)
  match a with
  | ⟨0, _⟩ => show win1_3.index t (0 : Fin 2) * 4096 + 1 * (y 0).val = (y 0).val; omega
  | ⟨1, _⟩ => show win1_3.index t (1 : Fin 2) * 128 + 1 * (y 1).val = (y 1).val; omega

/-- Window 4's block at the one point is its whole array. -/
theorem iblk_4 (c : Dev nD) (t : Fin cfg1.N) : iblk1 V c 4 t = V c main_v48 := by
  obtain ⟨e00, e01, e10, e11, e20, e21, e30, e31, e40, e41, e50, e51, e60, e61, e70, e71, e80, e81, e90, e91⟩ := idx_facts t
  funext y
  show V c main_v48 (((cfg1.win 4).blk t).view.emb y) = V c main_v48 y
  refine congrArg (V c main_v48) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block at the one point is its whole array. -/
theorem iblk_5 (c : Dev nD) (t : Fin cfg1.N) : iblk1 V c 5 t = V c main_v49 := by
  obtain ⟨e00, e01, e10, e11, e20, e21, e30, e31, e40, e41, e50, e51, e60, e61, e70, e71, e80, e81, e90, e91⟩ := idx_facts t
  funext y
  show V c main_v49 (((cfg1.win 5).blk t).view.emb y) = V c main_v49 y
  refine congrArg (V c main_v49) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6's block at the one point is its whole array. -/
theorem iblk_6 (c : Dev nD) (t : Fin cfg1.N) : iblk1 V c 6 t = V c main_v51 := by
  obtain ⟨e00, e01, e10, e11, e20, e21, e30, e31, e40, e41, e50, e51, e60, e61, e70, e71, e80, e81, e90, e91⟩ := idx_facts t
  funext y
  show V c main_v51 (((cfg1.win 6).blk t).view.emb y) = V c main_v51 y
  refine congrArg (V c main_v51) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7's block at the one point is its whole array. -/
theorem iblk_7 (c : Dev nD) (t : Fin cfg1.N) : iblk1 V c 7 t = V c main_v54 := by
  obtain ⟨e00, e01, e10, e11, e20, e21, e30, e31, e40, e41, e50, e51, e60, e61, e70, e71, e80, e81, e90, e91⟩ := idx_facts t
  funext y
  show V c main_v54 (((cfg1.win 7).blk t).view.emb y) = V c main_v54 y
  refine congrArg (V c main_v54) (funext fun a => Fin.ext ?_)
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- Window 8's block at the one point is its whole array. -/
theorem iblk_8 (c : Dev nD) (t : Fin cfg1.N) : iblk1 V c 8 t = V c main_v58 := by
  obtain ⟨e00, e01, e10, e11, e20, e21, e30, e31, e40, e41, e50, e51, e60, e61, e70, e71, e80, e81, e90, e91⟩ := idx_facts t
  funext y
  show V c main_v58 (((cfg1.win 8).blk t).view.emb y) = V c main_v58 y
  refine congrArg (V c main_v58) (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- At the one point the output window is uncut and its block is the whole array: writing a buffer back and reading the
    block of an array with the same contents agree. -/
theorem cut_eq_read (t : Fin cfg1.N) (G : Vec Ideal S4096x128 .f32) :
    (cfg1.win 9).cut (grid1.coords t) G = ((cfg1.win 9).blk t).view.read (Elt Ideal) G := by
  obtain ⟨e00, e01, e10, e11, e20, e21, e30, e31, e40, e41, e50, e51, e60, e61, e70, e71, e80, e81, e90, e91⟩ := idx_facts t
  funext y
  have hy : ((cfg1.win 9).blk t).view.emb y = y := by
    funext a; apply Fin.ext
    match a with
    | ⟨0, _⟩ => show win1_9.index t (0 : Fin 2) * 4096 + 1 * (y 0).val = (y 0).val; omega
    | ⟨1, _⟩ => show win1_9.index t (1 : Fin 2) * 128 + 1 * (y 1).val = (y 1).val; omega
  show G y = G (((cfg1.win 9).blk t).view.emb y)
  rw [hy]

/-- What the one point writes back is the whole of the body's result on the nine arrays. -/
theorem flushed_eq (c : Dev nD) (t : Fin cfg1.N) :
    (dat1 V c).flushed 9 t = ((cfg1.win 9).blk t).view.read (Elt Ideal)
      (out1_9 (F := Ideal) (V c main_arg2) (V c main_arg6) (V c main_v50) (V c main_v47) (V c main_v48) (V c main_v49) (V c main_v51) (V c main_v54) (V c main_v58)) := by
  show (cfg1.win 9).cut (grid1.coords t) ((dat1 V c).after 9 t) = _
  rw [after1_9, iblk_0, iblk_1, iblk_2, iblk_3, iblk_4, iblk_5, iblk_6, iblk_7, iblk_8]
  exact cut_eq_read t _

/-- An index of the output array is in the point's block iff it lies in the block's rectangle on both axes. -/
theorem mem_blk (t : Fin cfg1.N) (i : S4096x128.Idx) :
    i ∈ ((cfg1.win 9).blk t).view.set ↔ ∀ a : Fin 2, win1_9.index t a * S4096x128.size a ≤ (i a).val
      ∧ (i a).val < win1_9.index t a * S4096x128.size a + S4096x128.size a := by
  show i ∈ ((View.whole main_v59).slice (win1_9.rect t)).set ↔ _
  rw [View.set_slice_whole, Rect.mem_set_unit]
  exact Iff.rfl

/-- Every index of the output array is in the one point's block. -/
theorem cover (i : S4096x128.Idx) : ∃ t : Fin cfg1.N, (cfg1.win 9).flush t = true ∧ i ∈ ((cfg1.win 9).blk t).view.set := by
  have hi0 : (i 0).val < 4096 := (i 0).isLt
  have hi1 : (i 1).val < 128 := (i 1).isLt
  obtain ⟨e00, e01, e10, e11, e20, e21, e30, e31, e40, e41, e50, e51, e60, e61, e70, e71, e80, e81, e90, e91⟩ := idx_facts t1_0
  refine ⟨t1_0, flush1_9 t1_0, ?_⟩
  rw [mem_blk]
  intro a
  match a with
  | ⟨0, _⟩ => show win1_9.index t1_0 (0 : Fin 2) * 4096 ≤ (i 0).val ∧ (i 0).val < win1_9.index t1_0 (0 : Fin 2) * 4096 + 4096; omega
  | ⟨1, _⟩ => show win1_9.index t1_0 (1 : Fin 2) * 128 ≤ (i 1).val ∧ (i 1).val < win1_9.index t1_0 (1 : Fin 2) * 128 + 128; omega

/-- THE OUTPUT ARRAY after the one grid point: the body's result on the nine arrays the pipeline read. -/
theorem final (c : Dev nD) :
    (dat1 V c).arrAt 9 cfg1.N = out1_9 (F := Ideal) (V c main_arg2) (V c main_arg6) (V c main_v50) (V c main_v47) (V c main_v48) (V c main_v49) (V c main_v51) (V c main_v54) (V c main_v58) :=
  (dat1 V c).arrAt_eq_of_cover 9 _ (fun t _ => flushed_eq V c t) cover

end Cert.KernelIdeal.Region1

end
-- ==== Proof.TailChain.lean ====
import proofs.«168464_j38783554683458_2_alg».proof.Proof.Gen.KernelIdeal.Frame
import proofs.«168464_j38783554683458_2_alg».proof.Proof.MlpKernel
import proofs.«168464_j38783554683458_2_alg».proof.Proof.Region1Array
import Idealize.ShloMosaic.Lib.StableHlo.Run

/-!
# The end of the kernel program's run, read off the fold of buffer contents

The program's last buffer is the final column cut of the second region's output array. That array is the body's
output block as a function of the nine arrays the region reads, and each of those is either a buffer the last stretch
of host operations leaves alone or the result of one of its layout operations (a row cut, an added unit axis, a
zero-padding scatter). Put together, the last buffer is the tail function of the eight arrays held before that stretch.
-/

noncomputable section

namespace Cert.KernelIdeal.TailChain

open Cert.KernelIdeal Cert.KernelIdeal.Gen Idealize.ShloMosaic Idealize.ShloMosaic.TcCoe Idealize.SL.Sem
open Idealize.ShloMosaic.StableHlo

/-! ## What the last stretch of host operations leaves in each buffer the second region reads -/

section Stretch
variable (W : Valuation τ sig (Elt Ideal))

theorem arg2_eq : StableHlo.after hostOps1_2 W (Proc.devRef .tc main_arg2) = W (Proc.devRef .tc main_arg2) := by
  after_results
theorem arg6_eq : StableHlo.after hostOps1_2 W (Proc.devRef .tc main_arg6) = W (Proc.devRef .tc main_arg6) := by
  after_results
theorem v47_eq : StableHlo.after hostOps1_2 W (Proc.devRef .tc main_v47) = W (Proc.devRef .tc main_v47) := by
  after_results
theorem v48_eq : StableHlo.after hostOps1_2 W (Proc.devRef .tc main_v48)
    = extractStridedSlice S128x128 ![0, 0] (W (Proc.devRef .tc main_arg8)) slices_S256x128_S128x128_0_0 := by
  after_results
theorem v49_eq : StableHlo.after hostOps1_2 W (Proc.devRef .tc main_v49)
    = extractStridedSlice S128x128 ![128, 0] (W (Proc.devRef .tc main_arg8)) slices_S256x128_S128x128_128_0 := by
  after_results
theorem v50_eq : StableHlo.after hostOps1_2 W (Proc.devRef .tc main_v50)
    = shapeCast S1x128 (W (Proc.devRef .tc main_arg7)) shapeCasts_S128_S1x128 := by
  after_results
  rfl
theorem v51_eq : StableHlo.after hostOps1_2 W (Proc.devRef .tc main_v51)
    = shapeCast S1x128 (W (Proc.devRef .tc main_arg9)) shapeCasts_S128_S1x128 := by
  after_results
  rfl

end Stretch

section Stretch2
variable (W : Valuation τ sig (Elt Ideal))

theorem v54_eq : StableHlo.after hostOps1_2 W (Proc.devRef .tc main_v54)
    = Host.scatter scatter_S128x128_S1_S128x100_01_n_1_0 (fun _ b => b)
        (broadcastInDim S128x128 ![] bcast_S_S128x128 (constant (F := Ideal) S_ .f32 0x00000000#32))
        (broadcastInDim S1 ![] bcast_S_S1 (constantI S_ 32 0#32)) (W (Proc.devRef .tc main_arg10)) := by
  after_results
theorem v58_eq : StableHlo.after hostOps1_2 W (Proc.devRef .tc main_v58)
    = Host.scatter scatter_S1x128_S1_S1x100_01_n_1_0 (fun _ b => b)
        (broadcastInDim S1x128 ![] bcast_S_S1x128 (constant (F := Ideal) S_ .f32 0x00000000#32))
        (broadcastInDim S1 ![] bcast_S_S1 (constantI S_ 32 0#32))
        (shapeCast S1x100 (W (Proc.devRef .tc main_arg11)) shapeCasts_S100_S1x100) := by
  after_results
  rfl

/-- The final host operation: the column cut of the second region's output array. -/
theorem v60_eq : StableHlo.after hostOps2 W (Proc.devRef .tc main_v60)
    = extractStridedSlice S4096x100 ![0, 0] (W (Proc.devRef .tc main_v59)) slices_S4096x128_S4096x100_0_0 := by
  after_results

end Stretch2

/-- The body's output block is a function of its nine input blocks. -/
theorem out_congr {a0 b0 : Vec Ideal S4096x64 .f32} {a1 b1 : Vec Ideal S64x128 .f32} {a2 b2 : Vec Ideal S1x128 .f32}
    {a3 b3 : Vec Ideal S4096x128 .f32} {a4 b4 a5 b5 : Vec Ideal S128x128 .f32} {a6 b6 : Vec Ideal S1x128 .f32}
    {a7 b7 : Vec Ideal S128x128 .f32} {a8 b8 : Vec Ideal S1x128 .f32}
    (h0 : a0 = b0) (h1 : a1 = b1) (h2 : a2 = b2) (h3 : a3 = b3) (h4 : a4 = b4) (h5 : a5 = b5) (h6 : a6 = b6) (h7 : a7 = b7) (h8 : a8 = b8) :
    out1_9 (F := Ideal) a0 a1 a2 a3 a4 a5 a6 a7 a8 = out1_9 (F := Ideal) b0 b1 b2 b3 b4 b5 b6 b7 b8 := by
  subst h0 h1 h2 h3 h4 h5 h6 h7 h8; rfl

/-! ## The last buffer -/

variable (m : (ℓ : Loc nD τ sig) → Buf (Elt Ideal) ℓ) (ρ : Dev nD → PrngReg)

/-- THE PROGRAM'S LAST BUFFER is the tail function of the eight arrays held before the last stretch of host
    operations (`hfin`: the second region's output array is the body's output block of the arrays it reads). -/
theorem result_eq_of (hfin : ∀ (V : (c : Dev nD) → (b : Ref sig .tc) → Buf (Elt Ideal) ((c : Thread nD τ).loc b)) (c : Dev nD),
      (dat1 V c).arrAt 9 cfg1.N = out1_9 (F := Ideal) (V c main_arg2) (V c main_arg6) (V c main_v50) (V c main_v47) (V c main_v48)
        (V c main_v49) (V c main_v51) (V c main_v54) (V c main_v58)) (c : Dev nD) :
    W9 m ρ c (Proc.devRef .tc main_v60)
      = Cert.KernelIdeal.Mlp.kernelTail (W6 m ρ c (Proc.devRef .tc main_arg2)) (W6 m ρ c (Proc.devRef .tc main_arg6))
          (W6 m ρ c (Proc.devRef .tc main_arg7)) (W6 m ρ c (Proc.devRef .tc main_v47)) (W6 m ρ c (Proc.devRef .tc main_arg8))
          (W6 m ρ c (Proc.devRef .tc main_arg9)) (W6 m ρ c (Proc.devRef .tc main_arg10)) (W6 m ρ c (Proc.devRef .tc main_arg11)) := by
  refine (v60_eq (W8 m ρ c)).trans ?_
  refine (congrArg (fun z => extractStridedSlice S4096x100 ![0, 0] z slices_S4096x128_S4096x100_0_0)
    ((W8_arr m ρ c 9).trans ((hfin (V7 m ρ) c).trans
      (out_congr (arg2_eq (W6 m ρ c)) (arg6_eq (W6 m ρ c)) (v50_eq (W6 m ρ c)) (v47_eq (W6 m ρ c)) (v48_eq (W6 m ρ c))
        (v49_eq (W6 m ρ c)) (v51_eq (W6 m ρ c)) (v54_eq (W6 m ρ c)) (v58_eq (W6 m ρ c)))))).trans ?_
  rfl

/-- THE PROGRAM'S LAST BUFFER is the tail function of the eight arrays held before the last stretch of host operations. -/
theorem result_eq (c : Dev nD) :
    W9 m ρ c (Proc.devRef .tc main_v60)
      = Cert.KernelIdeal.Mlp.kernelTail (W6 m ρ c (Proc.devRef .tc main_arg2)) (W6 m ρ c (Proc.devRef .tc main_arg6))
          (W6 m ρ c (Proc.devRef .tc main_arg7)) (W6 m ρ c (Proc.devRef .tc main_v47)) (W6 m ρ c (Proc.devRef .tc main_arg8))
          (W6 m ρ c (Proc.devRef .tc main_arg9)) (W6 m ρ c (Proc.devRef .tc main_arg10)) (W6 m ρ c (Proc.devRef .tc main_arg11)) :=
  result_eq_of m ρ (fun V c => Cert.KernelIdeal.Region1.final V c) c

end Cert.KernelIdeal.TailChain
-- ==== Proof.LibRowGather.lean ====
/-
  `stablehlo.gather` of ROWS of a matrix and of ENTRIES of a vector at a column of start indices, read at an index.

  `x[idx]` of a matrix `x : [N, K]` (or a vector `x : [N]`) at an integer array `idx : [R]` lowers to a gather over the
  indices reshaped to `[R, 1]`: index_vector_dim 1, start_index_map `[0]`, collapsed_slice_dims `[0]`, and for the
  matrix offset_dims `[1]` with slice_sizes `[1, K]`. Result row `r` is the operand's row at the start index
  `idx[r, 0]`, read as a signed integer and clamped into `[0, N − 1]`.
-/
import Idealize.ShloMosaic.Lib.ValueIdx

noncomputable section

open Idealize.ShloMosaic Idealize.ShloMosaic.ValueIdx

namespace Cert.Lib.RowGather

variable {α : Type}

/-- The second axis is not the first. -/
private theorem one_ne_zero2 : ¬ ((1 : Fin 2) = 0) := by decide

/-- The dimension numbers of a row gather: operand `[N, K]`, start indices `[R, 1]`, result `[R, K]`; the conditions
    `wf` are decided on a program's literal shapes. -/
abbrev rowGatherDims (N K R : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(r, k)`: the operand at row `idx[r, 0]` (read signed, clamped into `[0, N − 1]`) and
    column `k`. -/
theorem rowGather_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowGatherDims N K R wf) x idx (ix2 r k)
      = x (ix2 (⟨min (idx (ix2 r (0 : Fin 1))).toInt.toNat (N - 1), by omega⟩ : Fin N) k) := by
  have h0 : ((rowGatherDims N K R wf).operandIdx (ix2 r k) idx (0 : Fin 2)).val
      = min (idx (ix2 r (0 : Fin 1))).toInt.toNat (N - 1) := by
    show (rowGatherDims N K R wf).start (ix2 r k) idx 0 + (rowGatherDims N K R wf).batchCoord (ix2 r k) 0
      + (rowGatherDims N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K R wf).startIndexMap from List.mem_singleton.mpr rfl)]
    have hsi : (rowGatherDims N K R wf).siIdx (ix2 r k) ⟨List.idxOf (0 : Fin 2) (rowGatherDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : ((rowGatherDims N K R wf).operandIdx (ix2 r k) idx (1 : Fin 2)).val = k.val := by
    show (rowGatherDims N K R wf).start (ix2 r k) idx 1 + (rowGatherDims N K R wf).batchCoord (ix2 r k) 1
      + (rowGatherDims N K R wf).offCoord (ix2 r k) 1 = _
    rw [GatherDims.batchCoord_eq_zero _ _ _ List.not_mem_nil]
    unfold GatherDims.start
    rw [dif_neg (show (1 : Fin 2) ∉ (rowGatherDims N K R wf).startIndexMap from
      fun h => absurd (List.mem_singleton.mp h) one_ne_zero2)]
    unfold GatherDims.offCoord
    rw [dif_pos ((GatherDims.mem_sKept _ _).mpr
      ⟨fun h => absurd (List.mem_singleton.mp h) one_ne_zero2, List.not_mem_nil⟩)]
    simp only [Nat.zero_add]
    rfl
  unfold Host.gather
  congr 1
  funext a
  refine Fin.ext ?_
  match a with
  | ⟨0, _⟩ => exact h0
  | ⟨1, _⟩ => exact h1

/-- The dimension numbers of an entry gather: operand `[N]`, start indices `[R, 1]`, result `[R]`; the conditions
    `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at the start index `idx[r, 0]`, read signed and clamped into
    `[0, N − 1]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r)
      = x (ix1 (⟨min (idx (ix2 r (0 : Fin 1))).toInt.toNat (N - 1), by omega⟩ : Fin N)) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Cert.Lib.RowGather

end
-- ==== Proof.LibRowScatterAdd.lean ====
/-
  `stablehlo.scatter` with an `add` body of ROWS into a matrix at a column of scatter indices, read at an index.

  `zeros((N, K)).at[idx].add(u)` with `idx : [E]` and `u : [E, K]` lowers to a scatter over the indices reshaped to
  `[E, 1]`: update_window_dims `[1]`, inserted_window_dims `[0]`, scatter_dims_to_operand_dims `[0]`,
  index_vector_dim 1. Update element `(e, k)` lands on operand element `(v, k)` exactly when the scatter index
  `idx[e, 0]`, read as a signed integer and NOT clamped, is `v`. At the ideal instance the result element is the sum
  of the updates landing on it, so scaling every update that can land on a row by a non-negative real scales that row.
-/
import Idealize.ShloMosaic.Lib.ValueIdx
import Idealize.ShloMosaic.PureOps.Ideal

noncomputable section

open scoped BigOperators

open Idealize.ShloMosaic Idealize.ShloMosaic.ValueIdx

namespace Cert.Lib.RowScatterAdd

/-- The second axis is not the first. -/
private theorem one_ne_zero2 : ¬ ((1 : Fin 2) = 0) := by decide

/-- The dimension numbers of a row scatter: operand `[N, K]`, scatter indices `[E, 1]`, updates `[E, K]`; the
    conditions `wf` are decided on a program's literal shapes. -/
abbrev rowScatterDims (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section Coordinates
variable {N K E w : Nat} (wf : ScatterDims.WF ⟨2, ![N, K]⟩ ⟨2, ![E, 1]⟩ ⟨2, ![E, K]⟩ [1] [0] [0] 1)
  (idx : IVec ⟨2, ![E, 1]⟩ w) (j : (⟨2, ![E, K]⟩ : Shape).Idx)

/-- On the row axis the window starts at the update row's scatter index, read signed. -/
theorem start_row : (rowScatterDims N K E wf).start j idx (0 : Fin 2) = (idx (ix2 (j 0) (0 : Fin 1))).toInt := by
  unfold ScatterDims.start
  rw [dif_pos (show (0 : Fin 2) ∈ (rowScatterDims N K E wf).scatterDimsToOperandDims from List.mem_singleton.mpr rfl)]
  have hsi : (rowScatterDims N K E wf).siIdx j ⟨List.idxOf (0 : Fin 2) (rowScatterDims N K E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col : (rowScatterDims N K E wf).start j idx (1 : Fin 2) = 0 := by
  unfold ScatterDims.start
  rw [dif_neg (show (1 : Fin 2) ∉ (rowScatterDims N K E wf).scatterDimsToOperandDims from
    fun h => absurd (List.mem_singleton.mp h) one_ne_zero2)]

/-- The row axis is inserted: its window coordinate is 0. -/
theorem window_row : (rowScatterDims N K E wf).window j (0 : Fin 2) = 0 := by
  unfold ScatterDims.window
  rw [dif_neg (show (0 : Fin 2) ∉ (rowScatterDims N K E wf).sKept from by
    simp [ScatterDims.sKept, Shape.kept, List.mem_filter])]

/-- The column axis's window coordinate is the update's column. -/
theorem window_col : (rowScatterDims N K E wf).window j (1 : Fin 2) = (j 1).val := by
  unfold ScatterDims.window
  rw [dif_pos (show (1 : Fin 2) ∈ (rowScatterDims N K E wf).sKept from by
    simp [ScatterDims.sKept, Shape.kept, List.mem_filter, List.mem_finRange])]
  rfl

end Coordinates

/-- An update element lands on operand element `i` only if its row's scatter index, read SIGNED and unclamped, is
    exactly `i`'s row; its column is kept. -/
theorem rowScatter_resultIdx_some {N K E w : Nat} (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) (i : (⟨2, ![N, K]⟩ : Shape).Idx)
    (h : (rowScatterDims N K E wf).resultIdx? j idx = some i) :
    (idx (ix2 (j 0) (0 : Fin 1))).toInt = ((i 0).val : Int) ∧ (j 1).val = (i 1).val := by
  unfold ScatterDims.resultIdx? at h
  split at h
  · rename_i hc
    obtain rfl := Option.some.inj h
    have h0 := (hc (0 : Fin 2)).1
    rw [start_row, window_row] at h0
    refine ⟨?_, ?_⟩
    · show _ = (((((rowScatterDims N K E wf).start j idx (0 : Fin 2)
        + ((rowScatterDims N K E wf).window j (0 : Fin 2) : Int)).toNat : Nat)) : Int)
      rw [start_row, window_row]
      omega
    · show _ = ((rowScatterDims N K E wf).start j idx (1 : Fin 2)
        + ((rowScatterDims N K E wf).window j (1 : Fin 2) : Int)).toNat
      rw [start_col, window_col]
      omega
  · exact absurd h (by simp)

/-- Conversely, an update element whose row's scatter index, read signed, is `i`'s row and whose column is `i`'s
    column lands on `i`. -/
theorem rowScatter_resultIdx_of_eq {N K E w : Nat} (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) (i : (⟨2, ![N, K]⟩ : Shape).Idx)
    (h0 : (idx (ix2 (j 0) (0 : Fin 1))).toInt = ((i 0).val : Int)) (h1 : (j 1).val = (i 1).val) :
    (rowScatterDims N K E wf).resultIdx? j idx = some i := by
  have hi0 : (i 0).val < N := idx2_lt0 i
  have hi1 : (i 1).val < K := idx2_lt1 i
  have hc : ∀ a : Fin 2, 0 ≤ (rowScatterDims N K E wf).start j idx a + ((rowScatterDims N K E wf).window j a : Int)
      ∧ (rowScatterDims N K E wf).start j idx a + ((rowScatterDims N K E wf).window j a : Int)
        < ((⟨2, ![N, K]⟩ : Shape).size a : Int) := by
    intro a
    match a with
    | ⟨0, _⟩ =>
      show 0 ≤ (rowScatterDims N K E wf).start j idx (0 : Fin 2) + ((rowScatterDims N K E wf).window j (0 : Fin 2) : Int)
        ∧ (rowScatterDims N K E wf).start j idx (0 : Fin 2) + ((rowScatterDims N K E wf).window j (0 : Fin 2) : Int) < (N : Int)
      rw [start_row, window_row, h0]; omega
    | ⟨1, _⟩ =>
      show 0 ≤ (rowScatterDims N K E wf).start j idx (1 : Fin 2) + ((rowScatterDims N K E wf).window j (1 : Fin 2) : Int)
        ∧ (rowScatterDims N K E wf).start j idx (1 : Fin 2) + ((rowScatterDims N K E wf).window j (1 : Fin 2) : Int) < (K : Int)
      rw [start_col, window_col, h1]; omega
  unfold ScatterDims.resultIdx?
  rw [dif_pos hc]
  congr 1
  funext a
  refine Fin.ext ?_
  match a with
  | ⟨0, _⟩ =>
    show ((rowScatterDims N K E wf).start j idx (0 : Fin 2)
      + ((rowScatterDims N K E wf).window j (0 : Fin 2) : Int)).toNat = (i 0).val
    rw [start_row, window_row, h0]; omega
  | ⟨1, _⟩ =>
    show ((rowScatterDims N K E wf).start j idx (1 : Fin 2)
      + ((rowScatterDims N K E wf).window j (1 : Fin 2) : Int)).toNat = (i 1).val
    rw [start_col, window_col, h1]; omega

/-- Multiplication by a non-negative real distributes over a finite sum of extended reals, infinities included. -/
theorem sum_mul_coe_of_nonneg {ι : Type} (s : Finset ι) (f : ι → EReal) (c : ℝ) (hc : 0 ≤ c) :
    ∑ j ∈ s, f j * (c : EReal) = (∑ j ∈ s, f j) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- SCALING A ROW OF A SCATTER-ADD INTO ZEROS: if every update element whose row's scatter index is `i`'s row is a
    non-negative real `c` times the corresponding element of a second update array, the accumulated element `i` is
    `c` times the second scatter-add's element `i`. -/
theorem rowScatterAdd_scale {N K E w : Nat} (wf : ScatterDims.WF ⟨2, ![N, K]⟩ ⟨2, ![E, 1]⟩ ⟨2, ![E, K]⟩ [1] [0] [0] 1)
    (idx : IVec ⟨2, ![E, 1]⟩ w) (u₁ u₂ : (⟨2, ![E, K]⟩ : Shape).Idx → EReal) (c : ℝ) (hc : 0 ≤ c)
    (i : (⟨2, ![N, K]⟩ : Shape).Idx)
    (h : ∀ j : (⟨2, ![E, K]⟩ : Shape).Idx, (idx (ix2 (j 0) (0 : Fin 1))).toInt = ((i 0).val : Int) → u₁ j = u₂ j * (c : EReal)) :
    Ideal.hostScatterAdd (rowScatterDims N K E wf) (fun _ => (0 : EReal)) idx u₁ i
      = Ideal.hostScatterAdd (rowScatterDims N K E wf) (fun _ => (0 : EReal)) idx u₂ i * (c : EReal) := by
  unfold Ideal.hostScatterAdd
  simp only [zero_add]
  rw [← sum_mul_coe_of_nonneg _ _ c hc]
  refine Finset.sum_congr rfl fun j hj => ?_
  exact h j (rowScatter_resultIdx_some wf idx j i (Finset.mem_filter.mp hj).2).1

end Cert.Lib.RowScatterAdd

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.KernelNode.lean ====
/-
  The node features the kernel program hands to its second pipeline, read at an index.

  Entry (t, k) is looked up at the t-th current target: with v the target's index after the negative-index wrap, read as a
  signed integer and clamped into [0, 99999] (what a row lookup does), it is  max(S[v, k] · d[v] + b[k], 0),  S the per-node
  sums and d the normalisation factors. The sums themselves are the exact accumulation, over the edges whose destination is
  the node, of the scaled rows at the edges' sources.
-/
import proofs.«168464_j38783554683458_2_alg».proof.Proof.KernelHost
import proofs.«168464_j38783554683458_2_alg».proof.Proof.LibRowGather
import proofs.«168464_j38783554683458_2_alg».proof.Proof.LibRowScatterAdd
import proofs.«168464_j38783554683458_2_alg».proof.Proof.LibIndexNorm
import Idealize.ShloMosaic.PureOps.Ideal.Laws

set_option maxRecDepth 16384

noncomputable section

namespace Cert.KernelIdeal.Node

open Cert.KernelIdeal Cert.KernelIdeal.Gen Cert.KernelIdeal.Chain Idealize.ShloMosaic Idealize.ShloMosaic.ValueIdx
open Cert.Lib.RowGather Cert.Lib.RowScatterAdd Cert.Lib.IndexNorm

/-- The well-formedness facts of the printed lookups and of the accumulation, under short names. -/
abbrev wfS := scatter_S100000x128_S1700000x1_S1700000x128_1_0_0_1_wf
abbrev wfG := gather_S100000x128_S1700000x1_S1700000x128_1_0_n_n_0_1_1128_wf
abbrev wfG4 := gather_S100000x128_S4096x1_S4096x128_1_0_n_n_0_1_1128_wf
abbrev wfV4 := gather_S100000_S4096x1_S4096_n_0_n_n_0_1_1_wf

/-- The zero splat is zero everywhere. -/
theorem zeros_apply (i : S100000x128.Idx) :
    broadcastInDim S100000x128 ![] bcast_S_S100000x128 (constant (F := Ideal) S_ .f32 0x00000000#32) i = (0 : EReal) :=
  Ideal.ofBits_zero_f32

theorem zerosT_apply (i : S4096x128.Idx) :
    broadcastInDim S4096x128 ![] bcast_S_S4096x128 (constant (F := Ideal) S_ .f32 0x00000000#32) i = (0 : EReal) :=
  Ideal.ofBits_zero_f32

/-- The per-node sums are the exact accumulation, from zero, of the looked-up rows. -/
theorem aggregate_eq (xws : FVec Ideal S100000x128 .f32) (src dst : IVec S1700000 32) :
    aggregate xws src dst = Ideal.hostScatterAdd (rowScatterDims 100000 128 1700000 wfS) (fun _ => (0 : EReal)) (colE dst)
      (Host.gather (rowGatherDims 100000 128 1700000 wfG) xws (colE (wrapE src))) := by
  unfold aggregate
  rw [show (broadcastInDim S100000x128 ![] bcast_S_S100000x128 (constant (F := Ideal) S_ .f32 0x00000000#32))
      = (fun _ => (0 : EReal)) from funext zeros_apply]
  rfl

/-- The t-th current target as a node: wrapped, read signed, clamped into the node range. -/
def target (ct : IVec S4096 32) (t : Fin 4096) : Fin 100000 :=
  ⟨min (colT (wrapT ct) (ix2 t (0 : Fin 1))).toInt.toNat (100000 - 1), by omega⟩

/-- THE NODE FEATURES AT (t, k). -/
theorem nodeForTruck_apply (xws : FVec Ideal S100000x128 .f32) (src dst : IVec S1700000 32) (dinv : FVec Ideal S100000 .f32)
    (ct : IVec S4096 32) (b : FVec Ideal S128 .f32) (t : Fin 4096) (k : Fin 128) :
    nodeForTruck xws src dst dinv ct b (ix2 t k)
      = max (aggregate xws src dst (ix2 (target ct t) k) * dinv (ix1 (target ct t)) + b (ix1 k)) 0 := by
  unfold nodeForTruck
  rw [maximumf_apply, addf_apply, mulf_apply, zerosT_apply]
  have hg : gather_S100000x128_S4096x1_S4096x128_1_0_n_n_0_1_1128 = rowGatherDims 100000 128 4096 wfG4 := rfl
  have hv : gather_S100000_S4096x1_S4096_n_0_n_n_0_1_1 = vecGatherDims 100000 4096 wfV4 := rfl
  rw [hg, hv, rowGather_apply (by decide) wfG4 _ _ t k, bcast_col_cols_apply, vecGather_apply (by decide) wfV4 _ _ t,
    bcast_row_rows_apply]
  rfl

end Cert.KernelIdeal.Node

end
-- ==== Proof.HostIdent.lean ====
/-
  The kernel program's host stages ARE the reference's: the edges' sources and destinations, the degrees, the factors and
  the index arrays are built by the same operations in the same order in both programs, so the kernel-side functions of
  KernelHost.lean equal the reference's stage functions at the same edge list — each equation holds because the two chains of
  definitions are the same text.
-/
import proofs.«168464_j38783554683458_2_alg».proof.Proof.KernelHost
import proofs.«168464_j38783554683458_2_alg».proof.Proof.RefReadP

set_option maxRecDepth 16384

noncomputable section

namespace Cert.Bridge

open Idealize.ShloMosaic
open Cert.KernelIdeal.Chain Cert.ReferenceIdeal.ReadP

variable (x1 : (⟨Cert.ReferenceIdeal.S2x1600000, .i32⟩ : BufTy).Contents (Elt Ideal))
variable (x3 : (⟨Cert.ReferenceIdeal.S4096, .i32⟩ : BufTy).Contents (Elt Ideal))

theorem srcK_eq : srcK x1 = val_main_v4 (F := Ideal) x1 := by
  unfold srcK val_main_v4 val_main_v3 val_main_v2 val_main_v1; rfl

theorem dstK_eq : dstK x1 = val_main_v7 (F := Ideal) x1 := by
  unfold dstK val_main_v7 val_main_v6 val_main_v5 val_main_v1; rfl

theorem degK_eq : degK x1 = val_main_v11 (F := Ideal) x1 := by
  unfold degK degOf val_main_v11 val_main_v10 val_main_v9 val_main_v8 val_main_cst val_main_cst_0
  rw [dstK_eq] <;> rfl

theorem dinvK_eq : dinvK x1 = val_main_v15 (F := Ideal) x1 := by
  have hd := degK_eq x1
  unfold degK at hd
  unfold dinvK dinvOf val_main_v15 val_main_v14 val_main_v13 val_main_v12 val_main_call0_v1 val_main_call0_v0 val_main_cst_2 val_main_cst_1
  rw [hd] <;> rfl

theorem colE_wrapE_src : colE (wrapE (val_main_v4 (F := Ideal) x1)) = val_main_v36 (F := Ideal) x1 := by
  unfold colE wrapE val_main_v36 val_main_v35 val_main_v34 val_main_v33 val_main_v32 val_main_v31 val_main_c_6 val_main_c_7; rfl

theorem colE_dst : colE (val_main_v7 (F := Ideal) x1) = val_main_v42 (F := Ideal) x1 := by
  unfold colE val_main_v42; rfl

theorem wrapT_eq : wrapT x3 = val_main_v57 (F := Ideal) x3 := by
  unfold wrapT val_main_v57 val_main_v56 val_main_v55 val_main_v54 val_main_v53 val_main_c_9 val_main_c_10; rfl

end Cert.Bridge

end
-- ==== Proof.GcnBridge.lean ====
/-
  The algebra that joins the two arrangements of the graph convolution.

  For a node v, the reference sums over the edges e into v the messages  xw[s(e)] · (d[s(e)] · d[v'(e)]),  where s(e) is
  the edge's clamped source, d the vector of normalisation factors, and v'(e) the edge's destination after the index
  normalisation a row lookup applies; the kernel's program first scales every row, xws[u] = xw[u] · d[u], sums the
  UNSCALED-by-destination messages xws[s(e)] over the same edges, and multiplies the sum by d[v] once, after the lookup.
  An edge takes part in node v's sum exactly when its raw destination, read as a signed integer, IS v; such a destination
  is not negative, so normalising it changes nothing and clamping it changes nothing: v'(e) = v, and every message of the
  reference's sum is the kernel's message times the ONE factor d[v]. That factor is a non-negative real (a reciprocal
  square root of a positive degree, or zero), and multiplication by a non-negative real distributes over any finite sum of
  extended reals, infinite terms included. Associativity of the product does the rest.
-/
import proofs.«168464_j38783554683458_2_alg».proof.Proof.GcnSpec
import proofs.«168464_j38783554683458_2_alg».proof.Proof.LibRowGather
import proofs.«168464_j38783554683458_2_alg».proof.Proof.LibRowScatterAdd

noncomputable section

open scoped BigOperators

namespace Cert.Gcn

open Idealize.ShloMosaic Idealize.ShloMosaic.ValueIdx Cert.Lib.RowGather Cert.Lib.RowScatterAdd

/-- A factor "reciprocal square root of x where x is positive, zero elsewhere" is a non-negative real, whatever extended
    real x is: at +∞ the reciprocal square root is 0, at a positive real it is a positive real. -/
theorem factor_nonneg (x : EReal) :
    ∃ c : ℝ, 0 ≤ c ∧ Scalar.select (Ideal.cmp .ogt x (0 : EReal)) (Ideal.rsqrt x) (0 : EReal) = (c : EReal) := by
  induction x using EReal.rec with
  | bot =>
    refine ⟨0, le_refl _, ?_⟩
    have : Ideal.cmp .ogt (⊥ : EReal) (0 : EReal) = 0#1 := by simp [Ideal.cmp]
    rw [this]; rfl
  | top =>
    refine ⟨0, le_refl _, ?_⟩
    have : Ideal.cmp .ogt (⊤ : EReal) (0 : EReal) = 1#1 := by simp [Ideal.cmp]
    rw [this]; rfl
  | coe r =>
    by_cases hr : 0 < r
    · refine ⟨(Real.sqrt r)⁻¹, inv_nonneg.mpr (Real.sqrt_nonneg r), ?_⟩
      have : Ideal.cmp .ogt ((r : ℝ) : EReal) (0 : EReal) = 1#1 := by
        simp [Ideal.cmp, hr]
      rw [this]
      show (if r < 0 then (⊥ : EReal) else if r = 0 then (⊤ : EReal) else (((Real.sqrt r)⁻¹ : ℝ) : EReal)) = _
      rw [if_neg (not_lt.mpr hr.le), if_neg hr.ne']
    · refine ⟨0, le_refl _, ?_⟩
      have : Ideal.cmp .ogt ((r : ℝ) : EReal) (0 : EReal) = 0#1 := by
        simp [Ideal.cmp, hr]
      rw [this]; rfl

/-- A start index that reads as the non-negative integer v < N is, clamped into [0, N − 1], v itself. -/
theorem clamp_eq {N : Nat} (x : BitVec 32) (v : Fin N) (h : x.toInt = (v.val : Int)) (hlt : min x.toInt.toNat (N - 1) < N) :
    (⟨min x.toInt.toNat (N - 1), hlt⟩ : Fin N) = v := by
  apply Fin.ext
  have := v.isLt
  show min x.toInt.toNat (N - 1) = v.val
  omega

/-- THE JOIN, per node and column: the reference's edge sum is the kernel's edge sum times the node's factor. `xw` is the
    projected features, `xws` the rows scaled by their own factor (`hX`), `d` the factors, each a non-negative real (`hd`);
    `iS` holds the edges' (normalised) sources, `iD` their raw destinations, `iDn` the destinations after normalisation, which
    leaves a non-negative index as it is (`hnorm`). -/
theorem agg_scale
    (wfS : ScatterDims.WF ⟨2, ![100000, 128]⟩ ⟨2, ![1700000, 1]⟩ ⟨2, ![1700000, 128]⟩ [1] [0] [0] 1)
    (wfG : GatherDims.WF ⟨2, ![100000, 128]⟩ ⟨2, ![1700000, 1]⟩ ⟨2, ![1700000, 128]⟩ [1] [0] [] [0] [] 1 ![1, 128])
    (wfV : GatherDims.WF ⟨1, ![100000]⟩ ⟨2, ![1700000, 1]⟩ ⟨1, ![1700000]⟩ [] [0] [] [0] [] 1 ![1])
    (xw xws : Mat 100000 128) (d : Vc 100000)
    (hX : ∀ (u : Fin 100000) (k : Fin 128), xws (ix2 u k) = xw (ix2 u k) * d (ix1 u))
    (hd : ∀ u : Fin 100000, ∃ c : ℝ, 0 ≤ c ∧ d (ix1 u) = (c : EReal))
    (iS iDn iD : IVec ⟨2, ![1700000, 1]⟩ 32)
    (hnorm : ∀ e : Fin 1700000, 0 ≤ (iD (ix2 e (0 : Fin 1))).toInt → iDn (ix2 e (0 : Fin 1)) = iD (ix2 e (0 : Fin 1)))
    (u₁ u₂ : Mat 1700000 128)
    (h₁ : ∀ (e : Fin 1700000) (k : Fin 128), u₁ (ix2 e k) = Host.gather (rowGatherDims 100000 128 1700000 wfG) xw iS (ix2 e k)
      * (Host.gather (vecGatherDims 100000 1700000 wfV) d iS (ix1 e) * Host.gather (vecGatherDims 100000 1700000 wfV) d iDn (ix1 e)))
    (h₂ : ∀ (e : Fin 1700000) (k : Fin 128), u₂ (ix2 e k) = Host.gather (rowGatherDims 100000 128 1700000 wfG) xws iS (ix2 e k))
    (v : Fin 100000) (k : Fin 128) :
    Ideal.hostScatterAdd (rowScatterDims 100000 128 1700000 wfS) (fun _ => (0 : EReal)) iD u₁ (ix2 v k)
      = Ideal.hostScatterAdd (rowScatterDims 100000 128 1700000 wfS) (fun _ => (0 : EReal)) iD u₂ (ix2 v k) * d (ix1 v) := by
  obtain ⟨c, hc, hcv⟩ := hd v
  rw [hcv]
  refine rowScatterAdd_scale wfS iD u₁ u₂ c hc (ix2 v k) fun j hj => ?_
  obtain ⟨e, k', rfl⟩ : ∃ (e : Fin 1700000) (k' : Fin 128), j = ix2 e k' := ⟨j 0, j 1, eq_ix2 j⟩
  have hj' : (iD (ix2 e (0 : Fin 1))).toInt = (v.val : Int) := hj
  have hn : iDn (ix2 e (0 : Fin 1)) = iD (ix2 e (0 : Fin 1)) := hnorm e (by rw [hj']; exact Int.natCast_nonneg _)
  rw [h₁ e k', h₂ e k', rowGather_apply (by decide) wfG xw iS e k', rowGather_apply (by decide) wfG xws iS e k',
    vecGather_apply (by decide) wfV d iS e, vecGather_apply (by decide) wfV d iDn e, hX,
    clamp_eq (iDn (ix2 e (0 : Fin 1))) v (by rw [hn]; exact hj'), hcv]
  exact (mul_assoc _ _ _).symm

end Cert.Gcn

end
-- ==== Proof.RefNode.lean ====
/-
  The reference's graph-convolution stage, read at an index.

  The reference gathers the projected features' rows at the edges' sources, scales each by the product of the two
  endpoint factors, scatter-adds the messages into zeros at the edges' raw destinations, adds the bias, clamps at zero,
  and looks the result up at the batch's nodes. Here each of those stages is read through the printed operations down to
  the three data-dependent ones (two gathers and the scatter-add), which are stated over general dimension numbers: the
  scatter-add's operand is the zero matrix; a message is a gathered row entry times the two gathered factors; the
  normalised destination column is the raw one wherever that is not negative; a factor is a non-negative real; and a
  looked-up entry is the clamped, biased aggregate at the looked-up node.
-/
import proofs.«168464_j38783554683458_2_alg».proof.Proof.RefReadP
import proofs.«168464_j38783554683458_2_alg».proof.Proof.LibRowGather
import proofs.«168464_j38783554683458_2_alg».proof.Proof.LibRowScatterAdd
import proofs.«168464_j38783554683458_2_alg».proof.Proof.LibIndexNorm
import proofs.«168464_j38783554683458_2_alg».proof.Proof.GcnBridge

noncomputable section

open scoped BigOperators

namespace Cert.ReferenceIdeal.Node

open Cert.ReferenceIdeal Cert.ReferenceIdeal.Gen Cert.ReferenceIdeal.ReadP Idealize.ShloMosaic Idealize.ShloMosaic.ValueIdx
  Cert.Lib.RowGather Cert.Lib.RowScatterAdd Cert.Lib.IndexNorm

/-- The row scatter-add's dimension numbers are well formed. -/
theorem wfS : ScatterDims.WF ⟨2, ![100000, 128]⟩ ⟨2, ![1700000, 1]⟩ ⟨2, ![1700000, 128]⟩ [1] [0] [0] 1 :=
  Facts₀.scatter_S100000x128_S1700000x1_S1700000x128_1_0_0_1_wf
/-- The edge row gather's dimension numbers are well formed. -/
theorem wfG : GatherDims.WF ⟨2, ![100000, 128]⟩ ⟨2, ![1700000, 1]⟩ ⟨2, ![1700000, 128]⟩ [1] [0] [] [0] [] 1 ![1, 128] :=
  Facts₀.gather_S100000x128_S1700000x1_S1700000x128_1_0_n_n_0_1_1128_wf
/-- The edge factor gather's dimension numbers are well formed. -/
theorem wfV : GatherDims.WF ⟨1, ![100000]⟩ ⟨2, ![1700000, 1]⟩ ⟨1, ![1700000]⟩ [] [0] [] [0] [] 1 ![1] :=
  Facts₀.gather_S100000_S1700000x1_S1700000_n_0_n_n_0_1_1_wf
/-- The batch row gather's dimension numbers are well formed. -/
theorem wfG4 : GatherDims.WF ⟨2, ![100000, 128]⟩ ⟨2, ![4096, 1]⟩ ⟨2, ![4096, 128]⟩ [1] [0] [] [0] [] 1 ![1, 128] :=
  Facts₀.gather_S100000x128_S4096x1_S4096x128_1_0_n_n_0_1_1128_wf

/-- The f32 zero word is the extended real 0. -/
theorem zero_word : FloatOps.ofBits (F := Ideal) .f32 0x00000000#32 = (0 : EReal) := Ideal.ofBits_zero_f32

/-- The scatter-add's operand is the zero matrix. -/
theorem v41_zero : val_main_v41 (F := Ideal) = fun _ => (0 : EReal) := by
  funext i
  rw [val_main_v41_apply, val_main_cst_8_apply]
  exact zero_word

/-- The aggregate is the scatter-add, into zeros at the raw destination column, of the messages. -/
theorem v43_eq (x0 : (⟨S100000x128, .f32⟩ : BufTy).Contents (Elt Ideal)) (x1 : (⟨S2x1600000, .i32⟩ : BufTy).Contents (Elt Ideal)) (x4 : (⟨S128x128, .f32⟩ : BufTy).Contents (Elt Ideal)) :
    val_main_v43 (F := Ideal) x0 x1 x4
      = Ideal.hostScatterAdd (rowScatterDims 100000 128 1700000 wfS) (fun _ => (0 : EReal)) (val_main_v42 (F := Ideal) x1)
          (val_main_v40 (F := Ideal) x0 x1 x4) := by
  unfold val_main_v43 Host.scatterAdd
  rw [Ideal.hostScatterAdd_def, v41_zero]
  rfl

/-- The two normalised source columns are the same operations on the same edge list. -/
theorem v21_eq_v36 (x1 : (⟨S2x1600000, .i32⟩ : BufTy).Contents (Elt Ideal)) : val_main_v21 (F := Ideal) x1 = val_main_v36 (F := Ideal) x1 := rfl

/-- A message: the gathered row entry times the product of the two gathered endpoint factors. -/
theorem v40_at (x0 : (⟨S100000x128, .f32⟩ : BufTy).Contents (Elt Ideal)) (x1 : (⟨S2x1600000, .i32⟩ : BufTy).Contents (Elt Ideal)) (x4 : (⟨S128x128, .f32⟩ : BufTy).Contents (Elt Ideal)) (e : Fin 1700000) (k : Fin 128) :
    val_main_v40 (F := Ideal) x0 x1 x4 (ix2 e k)
      = Host.gather (rowGatherDims 100000 128 1700000 wfG) (val_main_v0 (F := Ideal) x0 x4) (val_main_v36 (F := Ideal) x1) (ix2 e k)
        * (Host.gather (vecGatherDims 100000 1700000 wfV) (val_main_v15 (F := Ideal) x1) (val_main_v36 (F := Ideal) x1) (ix1 e)
          * Host.gather (vecGatherDims 100000 1700000 wfV) (val_main_v15 (F := Ideal) x1) (val_main_v28 (F := Ideal) x1) (ix1 e)) := by
  have hj : idx_main_v38 (idx_main_v39 (ix2 e k)) = ix1 e := funext fun a => Fin.ext (match a with | ⟨0, _⟩ => rfl)
  rw [val_main_v40_apply, val_main_v39_apply, val_main_v38_apply, val_main_v30_apply, hj]
  unfold val_main_v37 val_main_v22 val_main_v29
  rw [v21_eq_v36]
  rfl

/-- The normalised destination column is the raw one wherever the raw destination is not negative. -/
theorem norm_dst (x1 : (⟨S2x1600000, .i32⟩ : BufTy).Contents (Elt Ideal)) (e : Fin 1700000) :
    0 ≤ (val_main_v42 (F := Ideal) x1 (ix2 e (0 : Fin 1))).toInt →
      val_main_v28 (F := Ideal) x1 (ix2 e (0 : Fin 1)) = val_main_v42 (F := Ideal) x1 (ix2 e (0 : Fin 1)) := by
  intro h
  rw [val_main_v42_apply] at h
  rw [val_main_v28_apply, val_main_v42_apply, val_main_v27_apply, val_main_v24_apply, val_main_v26_apply, val_main_v23_apply,
    val_main_c_4_apply]
  exact wrap_of_nonneg _ _ h

/-- A normalisation factor is a non-negative real. -/
theorem dinv_nonneg (x1 : (⟨S2x1600000, .i32⟩ : BufTy).Contents (Elt Ideal)) (u : Fin 100000) :
    ∃ c : ℝ, 0 ≤ c ∧ val_main_v15 (F := Ideal) x1 (ix1 u) = (c : EReal) := by
  obtain ⟨c, hc, h⟩ := Cert.Gcn.factor_nonneg (val_main_v11 (F := Ideal) x1 (ix1 u))
  refine ⟨c, hc, ?_⟩
  rw [val_main_v15_apply, val_main_v13_apply, val_main_v14_apply, val_main_v12_apply, val_main_cst_1_apply,
    val_main_call0_v1_apply, val_main_call0_v0_apply, val_main_cst_2_apply, zero_word]
  revert h
  generalize val_main_v11 (F := Ideal) x1 (ix1 u) = y
  intro h
  exact h

/-- A looked-up entry: the aggregate at the looked-up node (its index read signed and clamped) plus the bias,
    clamped at zero. -/
theorem v59_at (x0 : (⟨S100000x128, .f32⟩ : BufTy).Contents (Elt Ideal)) (x1 : (⟨S2x1600000, .i32⟩ : BufTy).Contents (Elt Ideal)) (x3 : (⟨S4096, .i32⟩ : BufTy).Contents (Elt Ideal)) (x4 : (⟨S128x128, .f32⟩ : BufTy).Contents (Elt Ideal)) (x5 : (⟨S128, .f32⟩ : BufTy).Contents (Elt Ideal)) (t : Fin 4096) (k : Fin 128) :
    val_main_v59 (F := Ideal) x0 x1 x3 x4 x5 (ix2 t k)
      = max (val_main_v43 (F := Ideal) x0 x1 x4
          (ix2 (⟨min (val_main_v57 (F := Ideal) x3 (ix1 t)).toInt.toNat (100000 - 1), by omega⟩ : Fin 100000) k) + x5 (ix1 k)) 0 := by
  have h58 : val_main_v58 (F := Ideal) x3 (ix2 t (0 : Fin 1)) = val_main_v57 (F := Ideal) x3 (ix1 t) := by
    rw [val_main_v58_apply]
    exact congrArg _ (funext fun a => Fin.ext (match a with | ⟨0, _⟩ => rfl))
  unfold val_main_v59
  refine (rowGather_apply (by decide) wfG4 (val_main_v47 (F := Ideal) x0 x1 x4 x5) (val_main_v58 (F := Ideal) x3) t k).trans ?_
  rw [val_main_v47_apply, val_main_v46_apply, val_main_call1_v0_apply, val_main_call1_cst_apply, val_main_v45_apply,
    val_main_v44_apply, zero_word]
  have h5 : ∀ r : Fin 100000, idx_main_v44 (idx_main_v45 (ix2 r k)) = ix1 k := fun r =>
    funext fun a => Fin.ext (match a with | ⟨0, _⟩ => rfl)
  rw [h5]
  simp only [h58]
  rfl

end Cert.ReferenceIdeal.Node

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.MlpRef.lean ====
import proofs.«168464_j38783554683458_2_alg».proof.Proof.RefReadP
import proofs.«168464_j38783554683458_2_alg».proof.Proof.MlpSpec

/-!
# The reference's last three layers, read at an index

The reference's final stage at row `t`, column `j` is the closed form `Cert.Mlp.out`, with the gathered node
embedding kept as an opaque 4096 × 128 array. The only step that is not a chain of per-operation readings is the
contraction over the 256 joined columns: it splits into the first 128 columns (read from the first joined piece) and
the last 128 (read from the second piece at the column less 128).
-/

noncomputable section

open scoped BigOperators

namespace Cert.ReferenceIdeal.Mlp

open Cert.ReferenceIdeal Cert.ReferenceIdeal.Gen Cert.ReferenceIdeal.ReadP Idealize.ShloMosaic Idealize.ShloMosaic.ValueIdx

/-! ## The operand indices of the three contractions and the three bias reads, at coordinates -/

theorem lidx48 (t : Fin 4096) (p : Fin 128) (q : Fin 64) : lidx_main_v48 (ix2 t p) q = ix2 t q :=
  funext fun a => match a with | ⟨0, _⟩ => rfl | ⟨1, _⟩ => rfl
theorem ridx48 (t : Fin 4096) (p : Fin 128) (q : Fin 64) : ridx_main_v48 (ix2 t p) q = ix2 q p :=
  funext fun a => match a with | ⟨0, _⟩ => rfl | ⟨1, _⟩ => rfl
theorem bidx50 (t : Fin 4096) (p : Fin 128) : idx_main_v49 (idx_main_v50 (ix2 t p)) = ix1 p :=
  funext fun a => match a with | ⟨0, _⟩ => rfl
theorem lidx61 (t : Fin 4096) (k : Fin 128) (c : Fin 256) : lidx_main_v61 (ix2 t k) c = ix2 t c :=
  funext fun a => match a with | ⟨0, _⟩ => rfl | ⟨1, _⟩ => rfl
theorem ridx61 (t : Fin 4096) (k : Fin 128) (c : Fin 256) : ridx_main_v61 (ix2 t k) c = ix2 c k :=
  funext fun a => match a with | ⟨0, _⟩ => rfl | ⟨1, _⟩ => rfl
theorem bidx63 (t : Fin 4096) (k : Fin 128) : idx_main_v62 (idx_main_v63 (ix2 t k)) = ix1 k :=
  funext fun a => match a with | ⟨0, _⟩ => rfl
theorem lidx66 (t : Fin 4096) (j : Fin 100) (k : Fin 128) : lidx_main_v66 (ix2 t j) k = ix2 t k :=
  funext fun a => match a with | ⟨0, _⟩ => rfl | ⟨1, _⟩ => rfl
theorem ridx66 (t : Fin 4096) (j : Fin 100) (k : Fin 128) : ridx_main_v66 (ix2 t j) k = ix2 k j :=
  funext fun a => match a with | ⟨0, _⟩ => rfl | ⟨1, _⟩ => rfl
theorem bidx68 (t : Fin 4096) (j : Fin 100) : idx_main_v67 (idx_main_v68 (ix2 t j)) = ix1 j :=
  funext fun a => match a with | ⟨0, _⟩ => rfl

/-! ## First layer -/

theorem v52_at (x2 : (⟨S4096x64, .f32⟩ : BufTy).Contents (Elt Ideal)) (x6 : (⟨S64x128, .f32⟩ : BufTy).Contents (Elt Ideal)) (x7 : (⟨S128, .f32⟩ : BufTy).Contents (Elt Ideal)) (t : Fin 4096) (p : Fin 128) :
    val_main_v52 (F := Ideal) x2 x6 x7 (ix2 t p) = Cert.Mlp.truckEmb x2 x6 x7 t p := by
  rw [val_main_v52_apply, val_main_v51_apply, val_main_v48_apply, val_main_v50_apply, val_main_v49_apply,
    val_main_call2_v0_apply, val_main_call2_cst_apply, bidx50]
  simp only [lidx48, ridx48]
  show max (_ + _) (Ideal.ofBits .f32 0x00000000#32) = _
  rw [Ideal.ofBits_zero_f32]
  rfl

/-! ## The join along the columns -/

theorem v60_left (x0 : (⟨S100000x128, .f32⟩ : BufTy).Contents (Elt Ideal)) (x1 : (⟨S2x1600000, .i32⟩ : BufTy).Contents (Elt Ideal)) (x2 : (⟨S4096x64, .f32⟩ : BufTy).Contents (Elt Ideal)) (x3 : (⟨S4096, .i32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal)) (t : Fin 4096) (p : Fin 128) :
    val_main_v60 (F := Ideal) x0 x1 x2 x3 x4 x5 x6 x7 (ix2 t (Fin.castAdd 128 p))
      = val_main_v52 (F := Ideal) x2 x6 x7 (ix2 t p) := by
  unfold val_main_v60
  generalize val_main_v52 (F := Ideal) x2 x6 x7 = a
  generalize val_main_v59 (F := Ideal) x0 x1 x3 x4 x5 = b
  exact concatenate_pair_apply_left _ a b concatenates_S4096x128_S4096x128_S4096x256_d1 (ix2 t (Fin.castAdd 128 p)) rfl
    (ix2 t p) (fun c => match c with | ⟨0, _⟩ => rfl | ⟨1, _⟩ => rfl)

theorem v60_right (x0 : (⟨S100000x128, .f32⟩ : BufTy).Contents (Elt Ideal)) (x1 : (⟨S2x1600000, .i32⟩ : BufTy).Contents (Elt Ideal)) (x2 : (⟨S4096x64, .f32⟩ : BufTy).Contents (Elt Ideal)) (x3 : (⟨S4096, .i32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal)) (t : Fin 4096) (p : Fin 128) :
    val_main_v60 (F := Ideal) x0 x1 x2 x3 x4 x5 x6 x7 (ix2 t (Fin.natAdd 128 p))
      = val_main_v59 (F := Ideal) x0 x1 x3 x4 x5 (ix2 t p) := by
  unfold val_main_v60
  generalize val_main_v52 (F := Ideal) x2 x6 x7 = a
  generalize val_main_v59 (F := Ideal) x0 x1 x3 x4 x5 = b
  exact concatenate_pair_apply_right _ a b concatenates_S4096x128_S4096x128_S4096x256_d1 (ix2 t (Fin.natAdd 128 p)) rfl rfl
    (ix2 t p) (fun c => match c with | ⟨0, _⟩ => fun _ => rfl | ⟨1, _⟩ => fun h => absurd rfl h)
    (Nat.add_comm _ _)

/-! ## Second layer -/

theorem v65_at (x0 : (⟨S100000x128, .f32⟩ : BufTy).Contents (Elt Ideal)) (x1 : (⟨S2x1600000, .i32⟩ : BufTy).Contents (Elt Ideal)) (x2 : (⟨S4096x64, .f32⟩ : BufTy).Contents (Elt Ideal)) (x3 : (⟨S4096, .i32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (t : Fin 4096) (k : Fin 128) :
    val_main_v65 (F := Ideal) x0 x1 x2 x3 x4 x5 x6 x7 x8 x9 (ix2 t k)
      = Cert.Mlp.comb x2 x6 x7 (val_main_v59 (F := Ideal) x0 x1 x3 x4 x5) x8 x9 t k := by
  rw [val_main_v65_apply, val_main_v64_apply, val_main_v61_apply, val_main_v63_apply, val_main_v62_apply,
    val_main_call3_v0_apply, val_main_call3_cst_apply, bidx63]
  simp only [lidx61, ridx61]
  have hsum : (∑ c : Fin 256, val_main_v60 (F := Ideal) x0 x1 x2 x3 x4 x5 x6 x7 (ix2 t c) * x8 (ix2 c k))
      = (∑ p : Fin 128, Cert.Mlp.truckEmb x2 x6 x7 t p * x8 (ix2 (Fin.castAdd 128 p) k))
        + (∑ p : Fin 128, val_main_v59 (F := Ideal) x0 x1 x3 x4 x5 (ix2 t p) * x8 (ix2 (Fin.natAdd 128 p) k)) := by
    refine (Fin.sum_univ_add (a := 128) (b := 128)
      (fun c => val_main_v60 (F := Ideal) x0 x1 x2 x3 x4 x5 x6 x7 (ix2 t c) * x8 (ix2 c k))).trans ?_
    simp only [v60_left, v60_right, v52_at]
  rw [hsum]
  show max (_ + _) (Ideal.ofBits .f32 0x00000000#32) = _
  rw [Ideal.ofBits_zero_f32]
  rfl

/-! ## Third layer -/

theorem refTail_apply (x0 : (⟨S100000x128, .f32⟩ : BufTy).Contents (Elt Ideal)) (x1 : (⟨S2x1600000, .i32⟩ : BufTy).Contents (Elt Ideal)) (x2 : (⟨S4096x64, .f32⟩ : BufTy).Contents (Elt Ideal)) (x3 : (⟨S4096, .i32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S128x100, .f32⟩ : BufTy).Contents (Elt Ideal)) (x11 : (⟨S100, .f32⟩ : BufTy).Contents (Elt Ideal)) (t : Fin 4096) (j : Fin 100) :
    val_main_v69 (F := Ideal) x0 x1 x2 x3 x4 x5 x6 x7 x8 x9 x10 x11 (ix2 t j)
      = Cert.Mlp.out x2 x6 x7 (val_main_v59 (F := Ideal) x0 x1 x3 x4 x5) x8 x9 x10 x11 t j := by
  rw [val_main_v69_apply, val_main_v66_apply, val_main_v68_apply, val_main_v67_apply, bidx68]
  simp only [lidx66, ridx66, v65_at]
  rfl

end Cert.ReferenceIdeal.Mlp
-- ==== Proof.Bridge.lean ====
/-
  The two programs compute the same node features, and hence the same result.

  The kernel program's node features are `nodeForTruck` of the scaled projection, the reference's are its row lookup of the
  clipped, biased convolution. At entry (t, k) both are  max(· + b[k], 0)  of a per-node sum at the t-th current target
  (the same node on both sides: the same wrap, the same clamp); the reference's sum is the kernel's sum times the node's
  factor (GcnBridge.lean), the scaled projection being the reference's projection with each row times its factor. The
  truck-side layers then read the same node features on both sides and end in the same function (MlpSpec.lean).
-/
import proofs.«168464_j38783554683458_2_alg».proof.Proof.KernelNode
import proofs.«168464_j38783554683458_2_alg».proof.Proof.HostIdent
import proofs.«168464_j38783554683458_2_alg».proof.Proof.RefNode
import proofs.«168464_j38783554683458_2_alg».proof.Proof.GcnBridge
import proofs.«168464_j38783554683458_2_alg».proof.Proof.LibKeepdims
import proofs.«168464_j38783554683458_2_alg».proof.Proof.MlpKernel
import proofs.«168464_j38783554683458_2_alg».proof.Proof.MlpRef

set_option maxRecDepth 16384

noncomputable section

open scoped BigOperators

namespace Cert.Bridge

open Idealize.ShloMosaic Idealize.ShloMosaic.ValueIdx
open Cert.KernelIdeal.Chain Cert.ReferenceIdeal.ReadP

variable (x0 : (⟨Cert.ReferenceIdeal.S100000x128, .f32⟩ : BufTy).Contents (Elt Ideal))
variable (x1 : (⟨Cert.ReferenceIdeal.S2x1600000, .i32⟩ : BufTy).Contents (Elt Ideal))
variable (x2 : (⟨Cert.ReferenceIdeal.S4096x64, .f32⟩ : BufTy).Contents (Elt Ideal))
variable (x3 : (⟨Cert.ReferenceIdeal.S4096, .i32⟩ : BufTy).Contents (Elt Ideal))
variable (x4 : (⟨Cert.ReferenceIdeal.S128x128, .f32⟩ : BufTy).Contents (Elt Ideal))
variable (x5 : (⟨Cert.ReferenceIdeal.S128, .f32⟩ : BufTy).Contents (Elt Ideal))
variable (x6 : (⟨Cert.ReferenceIdeal.S64x128, .f32⟩ : BufTy).Contents (Elt Ideal))
variable (x7 : (⟨Cert.ReferenceIdeal.S128, .f32⟩ : BufTy).Contents (Elt Ideal))
variable (x8 : (⟨Cert.ReferenceIdeal.S256x128, .f32⟩ : BufTy).Contents (Elt Ideal))
variable (x9 : (⟨Cert.ReferenceIdeal.S128, .f32⟩ : BufTy).Contents (Elt Ideal))
variable (x10 : (⟨Cert.ReferenceIdeal.S128x100, .f32⟩ : BufTy).Contents (Elt Ideal))
variable (x11 : (⟨Cert.ReferenceIdeal.S100, .f32⟩ : BufTy).Contents (Elt Ideal))

/-- A row of the scaled projection is the reference's projected row times the node's factor (the factors staged as a
    one-column matrix). -/
theorem scaled_rows (d : (⟨Cert.ReferenceIdeal.S100000, .f32⟩ : BufTy).Contents (Elt Ideal)) (u : Fin 100000) (k : Fin 128) :
    Cert.Gcn.scaledProj x0 x4 (shapeCast Cert.KernelIdeal.S100000x1 d Cert.KernelIdeal.Gen.shapeCasts_S100000_S100000x1) (ix2 u k)
      = val_main_v0 (F := Ideal) x0 x4 (ix2 u k) * d (ix1 u) := by
  rw [Cert.Gcn.scaledProj_apply]
  unfold Cert.Gcn.scaledProjAt
  rw [Cert.Lib.Keepdims.shapeCast_a_a1_apply, val_main_v0_apply]
  refine congrArg (· * d (ix1 u)) (Finset.sum_congr rfl fun k' _ => ?_)
  have hl : lidx_main_v0 (ix2 u k) k' = ix2 u k' := by
    funext a; match a with | ⟨0, _⟩ => rfl | ⟨1, _⟩ => rfl
  have hr : ridx_main_v0 (ix2 u k) k' = ix2 k' k := by
    funext a; match a with | ⟨0, _⟩ => rfl | ⟨1, _⟩ => rfl
  rw [hl, hr]

/-- THE NODE FEATURES AGREE. -/
theorem node_eq :
    nodeForTruck (Cert.Gcn.scaledProj x0 x4 (shapeCast Cert.KernelIdeal.S100000x1 (dinvK x1) Cert.KernelIdeal.Gen.shapeCasts_S100000_S100000x1))
        (srcK x1) (dstK x1) (dinvK x1) x3 x5
      = val_main_v59 (F := Ideal) x0 x1 x3 x4 x5 := by
  rw [srcK_eq, dstK_eq, dinvK_eq]
  funext i
  obtain ⟨t, k, rfl⟩ : ∃ (t : Fin 4096) (k : Fin 128), i = ix2 t k := ⟨i 0, i 1, eq_ix2 i⟩
  rw [Cert.KernelIdeal.Node.nodeForTruck_apply, Cert.ReferenceIdeal.Node.v59_at]
  have hidx : colT (wrapT x3) (ix2 t (0 : Fin 1)) = val_main_v57 (F := Ideal) x3 (ix1 t) := by
    rw [wrapT_eq]; exact Cert.Lib.IndexNorm.bcast_col_apply _ _ t
  have htar : Cert.KernelIdeal.Node.target x3 t
      = (⟨min (val_main_v57 (F := Ideal) x3 (ix1 t)).toInt.toNat (100000 - 1), by omega⟩ : Fin 100000) := by
    apply Fin.ext
    show min (colT (wrapT x3) (ix2 t (0 : Fin 1))).toInt.toNat (100000 - 1) = _
    rw [hidx]
  rw [← htar]
  refine congrArg (fun z => max (z + x5 (ix1 k)) 0) ?_
  rw [Cert.ReferenceIdeal.Node.v43_eq, Cert.KernelIdeal.Node.aggregate_eq, colE_wrapE_src, colE_dst]
  exact (Cert.Gcn.agg_scale Cert.ReferenceIdeal.Node.wfS Cert.ReferenceIdeal.Node.wfG Cert.ReferenceIdeal.Node.wfV
    (val_main_v0 (F := Ideal) x0 x4) _ (val_main_v15 (F := Ideal) x1) (scaled_rows x0 x4 _)
    (Cert.ReferenceIdeal.Node.dinv_nonneg x1) (val_main_v36 (F := Ideal) x1) (val_main_v28 (F := Ideal) x1) (val_main_v42 (F := Ideal) x1)
    (Cert.ReferenceIdeal.Node.norm_dst x1) (val_main_v40 (F := Ideal) x0 x1 x4) _ (Cert.ReferenceIdeal.Node.v40_at x0 x1 x4)
    (fun _ _ => rfl) (Cert.KernelIdeal.Node.target x3 t) k).symm

/-- THE RESULTS AGREE: the kernel program's result, as a function of its arguments, is the reference's. -/
theorem result_eq :
    Cert.KernelIdeal.Mlp.kernelTail x2 x6 x7
        (nodeForTruck (Cert.Gcn.scaledProj x0 x4 (shapeCast Cert.KernelIdeal.S100000x1 (dinvK x1) Cert.KernelIdeal.Gen.shapeCasts_S100000_S100000x1))
          (srcK x1) (dstK x1) (dinvK x1) x3 x5)
        x8 x9 x10 x11
      = val_main_v69 (F := Ideal) x0 x1 x2 x3 x4 x5 x6 x7 x8 x9 x10 x11 := by
  rw [node_eq]
  funext i
  obtain ⟨t, j, rfl⟩ : ∃ (t : Fin 4096) (j : Fin 100), i = ix2 t j := ⟨i 0, i 1, eq_ix2 i⟩
  rw [Cert.KernelIdeal.Mlp.kernelTail_apply, Cert.ReferenceIdeal.Mlp.refTail_apply]

end Cert.Bridge

end
-- ==== Proof.lean ====
/-
  A graph-convolution layer feeding a small truck-side network: the kernel program against its reference, as extended reals.

  Both programs build, from the edge list, the edges' sources and destinations (one self loop per node appended), the nodes'
  degrees d and the factors  f[v] = d[v]^(-1/2)  where d[v] > 0, zero elsewhere — the same operations in both. The reference
  projects the node features, xw = x · W, sums for every node v the messages  xw[s] · (f[s] · f[v])  over the edges (s → v),
  adds the bias, clips at zero, and looks the result up at the current targets. The kernel program scales the projection by
  the SOURCE factor inside its first pipeline, xws[u] = xw[u] · f[u] (twenty row blocks of 5000 nodes, each a block product
  against the whole weight matrix), sums  xws[s]  over the same edges, and applies the DESTINATION factor, the bias and the
  clip only at the 4096 looked-up rows. The two agree because an edge contributes to node v exactly when its destination
  index IS v, so the destination factor is the same f[v] for every message of v's sum, f[v] is a non-negative real, and
  multiplication by a non-negative real distributes over any finite sum of extended reals; the rest is associativity
  (GcnBridge.lean, Bridge.lean). The truck-side network (three matrix products with bias and clip; the kernel program splits
  the middle product over the two halves of its weight matrix instead of joining the two inputs, and pads the last weight
  matrix and bias with zero columns that the final slice drops) is one function of the node features on both sides
  (MlpSpec.lean, MlpKernel.lean, MlpRef.lean). Changes of float format are the identity on extended reals throughout.

  The three frames: the two kernel programs' are the generated frame certificates; the reference's is its run with the
  result dropped. The ideal pass rewrote nothing, so the preservation claim is trivial. For the value claim the kernel
  program's run is read with its result (KernelRun.lean), the result walked back through the fold of host operations and
  pipelines to the arguments (TailChain.lean, KernelResult.lean), and joined to the reference's run (RefRunP.lean).
-/
import proofs.«168464_j38783554683458_2_alg».proof.Defs
import proofs.«168464_j38783554683458_2_alg».proof.Proof.Gen.Kernel
import proofs.«168464_j38783554683458_2_alg».proof.Proof.Gen.Kernel.Skeleton
import proofs.«168464_j38783554683458_2_alg».proof.Proof.Gen.Kernel.Launch
import proofs.«168464_j38783554683458_2_alg».proof.Proof.Gen.Kernel.Points
import proofs.«168464_j38783554683458_2_alg».proof.Proof.Gen.Kernel.Frame
import proofs.«168464_j38783554683458_2_alg».proof.Proof.Gen.KernelIdeal
import proofs.«168464_j38783554683458_2_alg».proof.Proof.Gen.KernelIdeal.Skeleton
import proofs.«168464_j38783554683458_2_alg».proof.Proof.Gen.KernelIdeal.Launch
import proofs.«168464_j38783554683458_2_alg».proof.Proof.Gen.KernelIdeal.Points
import proofs.«168464_j38783554683458_2_alg».proof.Proof.Gen.KernelIdeal.Frame
import proofs.«168464_j38783554683458_2_alg».proof.Proof.Gen.ReferenceIdeal
import proofs.«168464_j38783554683458_2_alg».proof.Proof.Gen.Pre_finite_inputs
import proofs.«168464_j38783554683458_2_alg».proof.Proof.KernelRun
import proofs.«168464_j38783554683458_2_alg».proof.Proof.KernelResult
import proofs.«168464_j38783554683458_2_alg».proof.Proof.TailChain
import proofs.«168464_j38783554683458_2_alg».proof.Proof.Bridge
import proofs.«168464_j38783554683458_2_alg».proof.Proof.RefRunP
import proofs.«168464_j38783554683458_2_alg».proof.Proof.RefReadP
import Idealize.ShloMosaic.Adequacy
import Idealize.ShloMosaic.Init

set_option maxRecDepth 16384

noncomputable section

namespace Cert.Proof

open Idealize.ShloMosaic Idealize.ShloMosaic.TcCoe Idealize.SL.Sem

/-- The result both programs end at, as the reference's function of the kernel program's argument arrays. -/
def resultOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v60) :=
  Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- The kernel program's result buffer, walked back to the arguments, holds that function. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W9 m ρ c (Proc.devRef .tc Cert.KernelIdeal.main_v60) = resultOf m c := by
  refine (Cert.KernelIdeal.TailChain.result_eq m ρ c).trans ?_
  rw [Cert.KernelIdeal.Chain.W6_arg2 m ρ c, Cert.KernelIdeal.Chain.W6_arg6 m ρ c, Cert.KernelIdeal.Chain.W6_arg7 m ρ c, Cert.KernelIdeal.Chain.W6_v47 m ρ c,
    Cert.KernelIdeal.Chain.W6_arg8 m ρ c, Cert.KernelIdeal.Chain.W6_arg9 m ρ c, Cert.KernelIdeal.Chain.W6_arg10 m ρ c, Cert.KernelIdeal.Chain.W6_arg11 m ρ c]
  exact Cert.Bridge.result_eq _ _ _ _ _ _ _ _ _ _ _ _

theorem frame_k : Cert.frame_Kernel := fun m ρ _ => Cert.Kernel.Gen.frame m ρ

theorem frame_ki : Cert.frame_KernelIdeal := fun m ρ _ => Cert.KernelIdeal.Gen.frame m ρ

/-- The reference has no pipeline: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end with the same result: the kernel program's run ends at `resultOf` of its arguments
    (`kernel_value`), the reference's at its own function of its arguments, which agree with the kernel program's. -/
theorem algebraic : Cert.algebraic_KernelIdeal_ReferenceIdeal := by
  intro m ρ m' ρ' _ hagree
  refine ⟨resultOf m, ?_, ?_⟩
  · exact (θ_run Cert.KernelIdeal.defs _ _).mono (fun r h c => ⟨(h c).1.trans (kernel_value m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v69_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
